-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S64 .f32) (main_arg6 : FVec F S64x1 .f32) (main_arg7 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg6
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x64 .f32) (main_arg3 : FVec F S64 .f32) (main_arg4 : FVec F S64x64 .f32) (main_arg5 : FVec F S64 .f32) (main_arg6 : FVec F S64x1 .f32) (main_arg7 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x64 : Shape := ⟨2, ![1, 64]⟩
abbrev S100000x64 : Shape := ⟨2, ![100000, 64]⟩
abbrev S5000x128 : Shape := ⟨2, ![5000, 128]⟩
abbrev S5000x1 : Shape := ⟨2, ![5000, 1]⟩
abbrev S5000x64 : Shape := ⟨2, ![5000, 64]⟩
abbrev S1600000x64 : Shape := ⟨2, ![1600000, 64]⟩
abbrev S1x1 : Shape := ⟨2, ![1, 1]⟩

abbrev nBuf : Space → Nat
  | .hbm => 41
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S100000x1, .f32⟩
  | .hbm, ⟨23, _⟩ => ⟨S1x64, .f32⟩
  | .hbm, ⟨24, _⟩ => ⟨S100000x64, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x64, .f32⟩
  | .hbm, ⟨34, _⟩ => ⟨S_, .f32⟩
  | .hbm, ⟨35, _⟩ => ⟨S100000x64, .f32⟩
  | .hbm, ⟨36, _⟩ => ⟨S1600000x1, .i32⟩
  | .hbm, ⟨37, _⟩ => ⟨S100000x64, .f32⟩
  | .hbm, ⟨38, _⟩ => ⟨S1x64, .f32⟩
  | .hbm, ⟨39, _⟩ => ⟨S1x1, .f32⟩
  | .hbm, ⟨40, _⟩ => ⟨S100000x1, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S1x64, .f32⟩
  | .local _ .vmem, ⟨4, _⟩ => ⟨S64x64, .f32⟩
  | .local _ .vmem, ⟨5, _⟩ => ⟨S5000x1, .f32⟩
  | .local _ .vmem, ⟨6, _⟩ => ⟨S5000x1, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x1, .f32⟩
  | .local _ .vmem, ⟨14, _⟩ => ⟨S5000x1, .f32⟩
  | .local _ .vmem, ⟨15, _⟩ => ⟨S64x1, .f32⟩
  | .local _ .vmem, ⟨16, _⟩ => ⟨S1x64, .f32⟩
  | .local _ .vmem, ⟨17, _⟩ => ⟨S1x1, .f32⟩
  | .local _ .vmem, ⟨18, _⟩ => ⟨S5000x1, .f32⟩
  | .local _ .vmem, ⟨19, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S1_S1x1 : S1.ShapeCasts S1x1
  shapeCasts_S5000x64_S5000x64 : S5000x64.ShapeCasts S5000x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  scatter_S100000_S1600000x1_S1600000_n_0_0_1_wf : ScatterDims.WF S100000 S1600000x1 S1600000 [] [0] [0] 1
  dot_S5000x128_S128x64_S5000x64_1_0_0_1_n_n_wf : DotDims.WF S5000x128 S128x64 S5000x64 [1] [0] [0] [1] [] []
  dot_S5000x64_S64x64_S5000x64_1_0_0_1_n_n_wf : DotDims.WF S5000x64 S64x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x1.size a ≤ S100000x1.size a
  hwx0_4 : ∀ i : grid0.Coords, EltTy.bits .f32 = 32 ∨ (Rect.block (s := S100000x1) S5000x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x1.size a ≤ S64x1.size a
  hwx1_3 : ∀ i : grid1.Coords, EltTy.bits .f32 = 32 ∨ (Rect.block (s := S64x1) S64x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x1.size a ≤ S100000x1.size a
  hwx1_6 : ∀ i : grid1.Coords, EltTy.bits .f32 = 32 ∨ (Rect.block (s := S100000x1) S5000x1.size (cc1_transform_6 i) (hinb1_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S5000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v13) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v23) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S1x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v26) S5000x1.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S100000x64 : Shape := ⟨2, ![100000, 64]⟩
abbrev S1x64 : Shape := ⟨2, ![1, 64]⟩
abbrev S_ : Shape := ⟨0, ![]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S1700000x1 : Shape := ⟨2, ![1700000, 1]⟩
abbrev S1700000x64 : Shape := ⟨2, ![1700000, 64]⟩
abbrev S100000x1 : Shape := ⟨2, ![100000, 1]⟩
abbrev S1x1 : Shape := ⟨2, ![1, 1]⟩

abbrev nBuf : Space → Nat
  | .hbm => 72
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S100000x64, .f32⟩
  | .hbm, ⟨9, _⟩ => ⟨S1x64, .f32⟩
  | .hbm, ⟨10, _⟩ => ⟨S100000x64, .f32⟩
  | .hbm, ⟨11, _⟩ => ⟨S100000x64, .f32⟩
  | .hbm, ⟨12, _⟩ => ⟨S_, .f32⟩
  | .hbm, ⟨13, _⟩ => ⟨S100000x64, .f32⟩
  | .hbm, ⟨14, _⟩ => ⟨S100000x64, .f32⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S100000, .i32⟩
  | .hbm, ⟨20, _⟩ => ⟨S1700000, .i32⟩
  | .hbm, ⟨21, _⟩ => ⟨S1700000, .i32⟩
  | .hbm, ⟨22, _⟩ => ⟨S100000x64, .f32⟩
  | .hbm, ⟨23, _⟩ => ⟨S_, .f32⟩
  | .hbm, ⟨24, _⟩ => ⟨S1700000, .f32⟩
  | .hbm, ⟨25, _⟩ => ⟨S_, .f32⟩
  | .hbm, ⟨26, _⟩ => ⟨S100000, .f32⟩
  | .hbm, ⟨27, _⟩ => ⟨S1700000x1, .i32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x64, .f32⟩
  | .hbm, ⟨58, _⟩ => ⟨S1700000x1, .f32⟩
  | .hbm, ⟨59, _⟩ => ⟨S1700000x64, .f32⟩
  | .hbm, ⟨60, _⟩ => ⟨S1700000x64, .f32⟩
  | .hbm, ⟨61, _⟩ => ⟨S_, .f32⟩
  | .hbm, ⟨62, _⟩ => ⟨S100000x64, .f32⟩
  | .hbm, ⟨63, _⟩ => ⟨S1700000x1, .i32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S100000x1, .f32⟩
  | .hbm, ⟨69, _⟩ => ⟨S1x1, .f32⟩
  | .hbm, ⟨70, _⟩ => ⟨S100000x1, .f32⟩
  | .hbm, ⟨71, _⟩ => ⟨S100000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_cst : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c : Ref sig .tc := ⟨.hbm, 30, rfl⟩
abbrev main_v18 : Ref sig .tc := ⟨.hbm, 31, rfl⟩
abbrev main_v19 : Ref sig .tc := ⟨.hbm, 32, rfl⟩
abbrev main_c_1 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_2 : Ref sig .tc := ⟨.hbm, 39, rfl⟩
abbrev main_v25 : Ref sig .tc := ⟨.hbm, 40, rfl⟩
abbrev main_v26 : Ref sig .tc := ⟨.hbm, 41, rfl⟩
abbrev main_c_3 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_4 : Ref sig .tc := ⟨.hbm, 49, rfl⟩
abbrev main_v33 : Ref sig .tc := ⟨.hbm, 50, rfl⟩
abbrev main_v34 : Ref sig .tc := ⟨.hbm, 51, rfl⟩
abbrev main_c_5 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_6 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  dot_S100000x128_S128x64_S100000x64_1_0_0_1_n_n_wf : DotDims.WF S100000x128 S128x64 S100000x64 [1] [0] [0] [1] [] []
  dot_S100000x64_S64x64_S100000x64_1_0_0_1_n_n_wf : DotDims.WF S100000x64 S64x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x1_S100000x1_1_0_0_1_n_n_wf : DotDims.WF S100000x64 S64x1 S100000x1 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.KernelRun.lean ====
/-
  The run of the two-launch program with its result array named.

  The program is four segments: host operations, the projection launch, host operations (the gather of the projected
  rows along the edges and their accumulation per arrival node), the combine launch. Every weakly fair execution
  terminates without a fault, each argument array ends as launched, and the result array ends at what the combine
  launch's write-backs leave: the fold of its twenty blocks over the array as that launch found it.
-/
import proofs.«113121_j6760278523984_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result array ends at the combine launch's folded
    write-backs and the eight argument arrays end as launched. -/
theorem run : θ_run defs (onTc (τ := τ) (main (F := F))) ⟨m, fun _ => 0, ρ⟩ (fun r => ∀ c : Dev nD,
      r.2.mem ((c.tc : Thread nD τ).loc main_v26) = (dat1 (V3 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v26 (by decide))).trans (W4_arr m ρ c 6),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Result

end
-- ==== Proof.LibPlainDot.lean ====
/-
  A rows-by-columns contraction read as a plain sum.

  Take operands of shapes [A, K] and [K, B] and a result of shape [A, B], with dimension numbers that say: no batch
  axes; the left operand keeps its axis 0 and the right its axis 1; axis 1 of the left is contracted against axis 0 of
  the right. The contraction's own index set is then a one-axis shape of extent K, and the sum over it of
  `x (left index) * y (right index)` at the result index (p, q) is `∑ k < K, x (p, k) * y (k, q)`: on its kept axis
  each operand reads the result's coordinate, on its contracted axis the contraction's one coordinate.

  Stated for ANY record with these dimension numbers and for any A, K, B, so the same lemma reads a matrix product
  of one block and a `dot_general` of a whole array. The extended reals enter only as the type the products are
  taken in: nothing here uses more than the sum's re-indexing along a bijection.
-/
import Idealize.ShloMosaic.Lib.ValueIdx
import Idealize.ShloMosaic.PureOps.Ideal.Laws

open scoped BigOperators

namespace Cert.PlainDot

open Idealize.ShloMosaic Idealize.ShloMosaic.ValueIdx

variable {A K B : Nat} (d : DotDims ⟨2, ![A, K]⟩ ⟨2, ![K, B]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 0) the left operand's index is the result's row coordinate: with no batch axis, the
    left operand's one kept axis is the result's axis 0. -/
theorem lhs_row (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 1) the right operand's index is the result's column coordinate: the result's axes are
    the batch axes (none), then the left's kept axes (one), then the right's kept axes, so this one is axis 1. -/
theorem rhs_col (hlb : d.lhsBatch = []) (hln : d.lhsNonContracting = [0]) (hrb : d.rhsBatch = [])
    (hrn : d.rhsNonContracting = [1]) (j : (⟨2, ![A, B]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products along row `p` of the left and column `q` of the right. -/
theorem sum_eq (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : (⟨2, ![A, K]⟩ : Shape).Idx → EReal) (y : (⟨2, ![K, B]⟩ : Shape).Idx → EReal) (p : Fin A) (q : Fin B) :
    ∑ k : d.contr.Idx, x (d.lhsIdx (ix2 p q) k) * y (d.rhsIdx (ix2 p q) k) = ∑ k : Fin K, x (ix2 p k) * y (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hlb hln _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact rhs_col d hlb hln hrb hrn _ _)
  rw [el, er]

end Cert.PlainDot
-- ==== Proof.LibDotRowRow.lean ====
/-
  A contraction of the SECOND axes of two matrices, read as a plain sum.

  Take operands of shapes [A, K] and [B, K] and a result of shape [A, B], with dimension numbers that say: no batch
  axes; each operand keeps its axis 0; axis 1 of the left is contracted against axis 1 of the right (the product of the
  left matrix with the TRANSPOSE of the right one, without the transpose being formed). The contraction's own index set
  is then a one-axis shape of extent K, and the sum over it of x (left index) * y (right index) at the result index
  (p, q) is ∑ k < K, x (p, k) * y (q, k): on its kept axis each operand reads the result's coordinate (the left the row
  coordinate, the right the column coordinate), on its contracted axis the contraction's one coordinate.

  Stated for ANY record with these dimension numbers and for any A, K, B. The extended reals enter only as the type the
  products are taken in: nothing here uses more than the sum's re-indexing along a bijection.
-/
import Idealize.ShloMosaic.Lib.ValueIdx
import Idealize.ShloMosaic.PureOps.Ideal.Laws

open scoped BigOperators

namespace Cert.RowRowDot

open Idealize.ShloMosaic Idealize.ShloMosaic.ValueIdx

variable {A K B : Nat} (d : DotDims ⟨2, ![A, K]⟩ ⟨2, ![B, K]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 0) the left operand's index is the result's row coordinate. -/
theorem lhs_row (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 0) the right operand's index is the result's COLUMN coordinate: the result's axes are the
    batch axes (none), then the left's kept axes (one), then the right's kept axes, so the right's kept axis is axis 1
    of the result. -/
theorem rhs_row (hlb : d.lhsBatch = []) (hln : d.lhsNonContracting = [0]) (hrb : d.rhsBatch = [])
    (hrn : d.rhsNonContracting = [0]) (j : (⟨2, ![A, B]⟩ : Shape).Idx) (k : d.contr.Idx) :
    (d.rhsIdx j k 0).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products along row p of the left and row q of the right. -/
theorem sum_eq (hlb : d.lhsBatch = []) (hln : d.lhsNonContracting = [0]) (hlc : d.lhsContracting = [1])
    (hrb : d.rhsBatch = []) (hrn : d.rhsNonContracting = [0]) (hrc : d.rhsContracting = [1])
    (hr : d.contr.rank = 1) (hs : d.contr.size ⟨0, by omega⟩ = K)
    (x : (⟨2, ![A, K]⟩ : Shape).Idx → EReal) (y : (⟨2, ![B, K]⟩ : Shape).Idx → EReal) (p : Fin A) (q : Fin B) :
    ∑ k : d.contr.Idx, x (d.lhsIdx (ix2 p q) k) * y (d.rhsIdx (ix2 p q) k) = ∑ k : Fin K, x (ix2 p k) * y (ix2 q k) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hlb hln _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact rhs_row d hlb hln hrb hrn _ _
    | ⟨1, _⟩ => exact (d.rhsIdx_val_of_single hrc _ _).trans hk)
  rw [el, er]

end Cert.RowRowDot
-- ==== Proof.LibZeroAccDots.lean ====
/-
  Two matrix products into a zero accumulator, read at an index as plain sums, for operands of any float formats.

  At the ideal values a matrix product unit adds, to the accumulator's entry, the sum over the contraction's index set of
  the products of the operands' entries; the operands' float formats play no part, every float being an extended real.
  When the accumulator is the zero splat there is no accumulator term, and for the two common two-dimensional shapes the
  contraction's index set is one axis of extent K:

    rows by columns,  [A, K] × [K, B] → [A, B]  (left axis 1 against right axis 0):  the entry at (p, q) is
      ∑ k < K, x (p, k) · y (k, q);
    rows by rows,     [A, K] × [B, K] → [A, B]  (left axis 1 against right axis 1, the product with the transposed right
      matrix, no transpose formed):                                                   the entry at (p, q) is
      ∑ k < K, x (p, k) · y (q, k).

  Both are stated for ANY record with those dimension numbers, any contraction precision, and any pair of operand formats
  (a product of two bf16 matrices into an f32 accumulator is the usual case).
-/
import proofs.«113121_j6760278523984_2_alg».proof.Proof.LibPlainDot
import proofs.«113121_j6760278523984_2_alg».proof.Proof.LibDotRowRow
import Idealize.ShloMosaic.PureOps.Ideal.Laws
import Idealize.ShloMosaic.Lib.ValueIdx

open scoped BigOperators

namespace Cert.ZeroAccDots

open Idealize.ShloMosaic Idealize.ShloMosaic.ValueIdx

/-- Rows by columns into the zero splat, at `(p, q)`: the plain sum along row `p` of the left operand and column `q`
    of the right. -/
theorem rows_columns {A K B : Nat} {φ₁ φ₂ : FTy} (d : DotDims ⟨2, ![A, K]⟩ ⟨2, ![K, B]⟩ ⟨2, ![A, B]⟩)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K) (prec : Option ContractPrecision)
    (x : FVec Ideal ⟨2, ![A, K]⟩ φ₁) (y : FVec Ideal ⟨2, ![K, B]⟩ φ₂) (p : Fin A) (q : Fin B) :
    FloatOps.matmul d prec x y (constant (F := Ideal) ⟨2, ![A, B]⟩ .f32 0x00000000#32) (ix2 p q)
      = ∑ k : Fin K, x (ix2 p k) * y (ix2 k q) :=
  (Ideal.matmul_constant_zero_apply d prec x y (ix2 p q)).trans
    (Cert.PlainDot.sum_eq d hlb hln hlc hrb hrn hrc hr hs x y p q)

/-- Rows by rows into the zero splat, at `(p, q)`: the plain sum along row `p` of the left operand and row `q` of the
    right. -/
theorem rows_rows {A K B : Nat} {φ₁ φ₂ : FTy} (d : DotDims ⟨2, ![A, K]⟩ ⟨2, ![B, K]⟩ ⟨2, ![A, B]⟩)
    (hlb : d.lhsBatch = []) (hln : d.lhsNonContracting = [0]) (hlc : d.lhsContracting = [1])
    (hrb : d.rhsBatch = []) (hrn : d.rhsNonContracting = [0]) (hrc : d.rhsContracting = [1])
    (hr : d.contr.rank = 1) (hs : d.contr.size ⟨0, by omega⟩ = K) (prec : Option ContractPrecision)
    (x : FVec Ideal ⟨2, ![A, K]⟩ φ₁) (y : FVec Ideal ⟨2, ![B, K]⟩ φ₂) (p : Fin A) (q : Fin B) :
    FloatOps.matmul d prec x y (constant (F := Ideal) ⟨2, ![A, B]⟩ .f32 0x00000000#32) (ix2 p q)
      = ∑ k : Fin K, x (ix2 p k) * y (ix2 q k) :=
  (Ideal.matmul_constant_zero_apply d prec x y (ix2 p q)).trans
    (Cert.RowRowDot.sum_eq d hlb hln hlc hrb hrn hrc hr hs x y p q)

end Cert.ZeroAccDots
-- ==== Proof.LibColumnLayout.lean ====
/-
  Column vectors read at an index: a length-`a` vector viewed as an `[a, 1]` column and back, and a column repeated
  along the second axis. Row-major position is preserved by the two casts (the unit axis contributes nothing to it), and
  a broadcast reads a unit axis of its operand at coordinate zero.
-/
import Idealize.ShloMosaic.Lib.ValueIdx
import Idealize.ShloMosaic.Lib.Pipeline.Value

noncomputable section

namespace Cert.ColumnLayout

open Idealize.ShloMosaic Idealize.ShloMosaic.ValueIdx

variable {α : Type}

/-- An `[a]` array cast to an `[a, 1]` column reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.ColumnLayout

end
-- ==== Proof.KernelTiles.lean ====
/-
  The two kernel bodies, one entry at a time, at the exact values.

  The projection body, on a block of 5000 rows: the entry (p, q) of what it stores is
    dinv p · ∑ k < 64, max (∑ j < 128, x (p, j) · W_in (j, k) + b_in k) 0 · W_g (k, q)
  — a changed float format is the identity at the exact values, a matrix product into the zero tile is the plain sum
  of products, the bias row is read at its column, and the scaling column is read at its row.
  The combine body: the entry (p, 0) of what it stores is
    ∑ k < 64, (dinv p · (agg (p, k) + hw2 (p, k)) + b_g k) · W_out (k, 0) + b_out.
-/
import proofs.«113121_j6760278523984_2_alg».proof.Proof.Gen.KernelIdeal.Skeleton
import proofs.«113121_j6760278523984_2_alg».proof.Proof.LibZeroAccDots
import proofs.«113121_j6760278523984_2_alg».proof.Proof.LibColumnLayout
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.KernelIdeal.Tiles

open Cert.KernelIdeal Cert.KernelIdeal.Gen Idealize.ShloMosaic Idealize.ShloMosaic.ValueIdx

/-- The first product of the projection body, into the zero tile, at (p, q). -/
theorem dot_x_win (x : FVec Ideal S5000x128 .bf16) (w : FVec Ideal S128x64 .bf16) (p : Fin 5000) (q : Fin 64) :
    matmul dot_S5000x128_S128x64_S5000x64_1_0_0_1_n_n none x w (constant S5000x64 .f32 0x00000000#32) (ix2 p q)
      = ∑ j : Fin 128, x (ix2 p j) * w (ix2 j q) :=
  Cert.ZeroAccDots.rows_columns dot_S5000x128_S128x64_S5000x64_1_0_0_1_n_n rfl rfl rfl rfl rfl rfl rfl rfl none x w p q

/-- The second product of the projection body, at (p, q). -/
theorem dot_h_wg (h : FVec Ideal S5000x64 .bf16) (g : FVec Ideal S64x64 .bf16) (p : Fin 5000) (q : Fin 64) :
    matmul dot_S5000x64_S64x64_S5000x64_1_0_0_1_n_n none h g (constant S5000x64 .f32 0x00000000#32) (ix2 p q)
      = ∑ k : Fin 64, h (ix2 p k) * g (ix2 k q) :=
  Cert.ZeroAccDots.rows_columns dot_S5000x64_S64x64_S5000x64_1_0_0_1_n_n rfl rfl rfl rfl rfl rfl rfl rfl none h g p q

/-- The product of the combine body, at (p, u). -/
theorem dot_o_wout (o : FVec Ideal S5000x64 .bf16) (w : FVec Ideal S64x1 .bf16) (p : Fin 5000) (u : Fin 1) :
    matmul dot_S5000x64_S64x1_S5000x1_1_0_0_1_n_n none o w (constant S5000x1 .f32 0x00000000#32) (ix2 p u)
      = ∑ k : Fin 64, o (ix2 p k) * w (ix2 k u) :=
  Cert.ZeroAccDots.rows_columns dot_S5000x64_S64x1_S5000x1_1_0_0_1_n_n rfl rfl rfl rfl rfl rfl rfl rfl none o w p u

/-- THE PROJECTION BODY at (p, q). -/
theorem proj_apply (x : Vec Ideal S5000x128 .f32) (w : Vec Ideal S128x64 .f32) (b : Vec Ideal S1x64 .f32)
    (g : Vec Ideal S64x64 .f32) (d : Vec Ideal S5000x1 .f32) (p : Fin 5000) (q : Fin 64) :
    k0_pay1 x w b g d (ix2 p q)
      = d (ix2 p (0 : Fin 1)) * ∑ k : Fin 64,
          max (∑ j : Fin 128, x (ix2 p j) * w (ix2 j k) + b (ix2 (0 : Fin 1) k)) (Ideal.ofBits .f32 0x00000000#32) * g (ix2 k q) := by
  unfold k0_pay1
  simp only [mulf_apply, shapeCast_self, Cert.ColumnLayout.broadcastTo_a1_ab_apply, dot_h_wg, truncf_apply, maximumf_apply,
    addf_apply, dot_x_win, broadcastTo_1b_ab_apply, broadcast_apply]
  rfl

/-- THE COMBINE BODY at (p, u). -/
theorem comb_apply (d : Vec Ideal S5000x1 .f32) (bg : Vec Ideal S1x64 .f32) (agg : Vec Ideal S5000x64 .f32)
    (hw2 : Vec Ideal S5000x64 .f32) (wo : Vec Ideal S64x1 .f32) (bo : Vec Ideal S1x1 .f32) (p : Fin 5000) (u : Fin 1) :
    k1_pay1 d bg agg hw2 wo bo (ix2 p u)
      = ∑ k : Fin 64, (d (ix2 p (0 : Fin 1)) * (agg (ix2 p k) + hw2 (ix2 p k)) + bg (ix2 (0 : Fin 1) k)) * wo (ix2 k u)
        + bo (ix2 (0 : Fin 1) u) := by
  unfold k1_pay1
  simp only [addf_apply, dot_o_wout, truncf_apply, mulf_apply, shapeCast_self, Cert.ColumnLayout.broadcastTo_a1_ab_apply,
    broadcastTo_1b_ab_apply]

end Cert.KernelIdeal.Tiles

end
-- ==== Proof.Spec.lean ====
/-
  The two dense stages of the graph convolution as functions of whole arrays, entry by entry, on the extended reals.

  `hw2At`: row p of the projected and pre-scaled features,
     hw2 (p, q) = dinv p · ∑ k < 64, max (∑ j < 128, x (p, j) · W_in (j, k) + b_in k) 0 · W_g (k, q).
  `outAt`: row p of the result from the aggregated rows `agg`,
     out (p, 0) = ∑ k < 64, (dinv p · (agg (p, k) + hw2 (p, k)) + b_g k) · W_out (k, 0) + b_out.
  The zero of the rectifier is kept as the word it is printed with.
-/
import Idealize.ShloMosaic.Lib.ValueIdx
import Idealize.ShloMosaic.PureOps.Ideal.Laws

open scoped BigOperators

noncomputable section

namespace Cert.Gcn

open Idealize.ShloMosaic Idealize.ShloMosaic.ValueIdx

/-- The rows of block `t` of twenty blocks of 5000 rows. -/
def row (t : Fin 20) (p : Fin 5000) : Fin 100000 := ⟨5000 * t.val + p.val, by have := t.isLt; have := p.isLt; omega⟩

theorem row_val (t : Fin 20) (p : Fin 5000) : (row t p).val = 5000 * t.val + p.val := rfl

/-- The rectified input projection, at (p, k). -/
def hidAt (x : (⟨2, ![100000, 128]⟩ : Shape).Idx → EReal) (win : (⟨2, ![128, 64]⟩ : Shape).Idx → EReal)
    (b : (⟨2, ![1, 64]⟩ : Shape).Idx → EReal) (p : Fin 100000) (k : Fin 64) : EReal :=
  max (∑ j : Fin 128, x (ix2 p j) * win (ix2 j k) + b (ix2 (0 : Fin 1) k)) (Ideal.ofBits .f32 0x00000000#32)

/-- The projected features, at (p, q). -/
def hwAt (x : (⟨2, ![100000, 128]⟩ : Shape).Idx → EReal) (win : (⟨2, ![128, 64]⟩ : Shape).Idx → EReal)
    (b : (⟨2, ![1, 64]⟩ : Shape).Idx → EReal) (g : (⟨2, ![64, 64]⟩ : Shape).Idx → EReal) (p : Fin 100000) (q : Fin 64) : EReal :=
  ∑ k : Fin 64, hidAt x win b p k * g (ix2 k q)

/-- The projected features scaled by the row's weight, at (p, q). -/
def hw2At (x : (⟨2, ![100000, 128]⟩ : Shape).Idx → EReal) (win : (⟨2, ![128, 64]⟩ : Shape).Idx → EReal)
    (b : (⟨2, ![1, 64]⟩ : Shape).Idx → EReal) (g : (⟨2, ![64, 64]⟩ : Shape).Idx → EReal)
    (d : (⟨2, ![100000, 1]⟩ : Shape).Idx → EReal) (p : Fin 100000) (q : Fin 64) : EReal :=
  d (ix2 p (0 : Fin 1)) * hwAt x win b g p q

/-- The same as a whole array. -/
def hw2Arr (x : (⟨2, ![100000, 128]⟩ : Shape).Idx → EReal) (win : (⟨2, ![128, 64]⟩ : Shape).Idx → EReal)
    (b : (⟨2, ![1, 64]⟩ : Shape).Idx → EReal) (g : (⟨2, ![64, 64]⟩ : Shape).Idx → EReal)
    (d : (⟨2, ![100000, 1]⟩ : Shape).Idx → EReal) : (⟨2, ![100000, 64]⟩ : Shape).Idx → EReal :=
  fun i => hw2At x win b g d (i 0) (i 1)

/-- The result row from the aggregated rows, at (p, u). -/
def outAt (agg hw2 : (⟨2, ![100000, 64]⟩ : Shape).Idx → EReal) (d : (⟨2, ![100000, 1]⟩ : Shape).Idx → EReal)
    (wo : (⟨2, ![64, 1]⟩ : Shape).Idx → EReal) (bg : (⟨2, ![1, 64]⟩ : Shape).Idx → EReal)
    (bo : (⟨2, ![1, 1]⟩ : Shape).Idx → EReal) (p : Fin 100000) (u : Fin 1) : EReal :=
  ∑ k : Fin 64, (d (ix2 p (0 : Fin 1)) * (agg (ix2 p k) + hw2 (ix2 p k)) + bg (ix2 (0 : Fin 1) k)) * wo (ix2 k u)
    + bo (ix2 (0 : Fin 1) u)

/-- The same as a whole array. -/
def outArr (agg hw2 : (⟨2, ![100000, 64]⟩ : Shape).Idx → EReal) (d : (⟨2, ![100000, 1]⟩ : Shape).Idx → EReal)
    (wo : (⟨2, ![64, 1]⟩ : Shape).Idx → EReal) (bg : (⟨2, ![1, 64]⟩ : Shape).Idx → EReal)
    (bo : (⟨2, ![1, 1]⟩ : Shape).Idx → EReal) : (⟨2, ![100000, 1]⟩ : Shape).Idx → EReal :=
  fun i => outAt agg hw2 d wo bg bo (i 0) (i 1)

end Cert.Gcn

end
-- ==== Proof.KernelArrays.lean ====
/-
  From blocks to arrays, for both launches, at any contents the launch is entered with.

  Each launch runs over twenty blocks of 5000 rows. At point t the projection launch writes back, to rows
  5000·t … 5000·t + 4999 of its output, its body's result on the blocks of those same rows of x and of the scaling
  column and on the whole weight arrays; so what it writes back is block t of ONE whole-array function (`hw2Arr`) of the
  arrays it was entered with, and since the twenty blocks cover the 100000 rows the output array ends holding that
  function. The combine launch likewise (`outArr`).
-/
import proofs.«113121_j6760278523984_2_alg».proof.Proof.Gen.KernelIdeal.Frame
import proofs.«113121_j6760278523984_2_alg».proof.Proof.KernelTiles
import proofs.«113121_j6760278523984_2_alg».proof.Proof.Spec
import Idealize.ShloMosaic.Lib.Pipeline.Value

set_option maxRecDepth 16384

open scoped BigOperators

noncomputable section

namespace Cert.KernelIdeal.Arrays

open Cert.KernelIdeal Cert.KernelIdeal.Gen Cert.Gcn Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem offs_zero : (![0, 0] : Fin 2 → Nat) = fun _ => 0 := funext fun a => by fin_cases a <;> rfl

/-! ## The body's result on blocks that are rows of whole arrays -/

/-- The projection body on blocks that are rows `5000·t + p` of `X` and of `D` and the whole of `W`, `B`, `G`: row
    `5000·t + p` of the projected, pre-scaled features. -/
theorem proj_block (X : S100000x128.Idx → EReal) (W : S128x64.Idx → EReal) (B : S1x64.Idx → EReal) (G : S64x64.Idx → EReal)
    (D : S100000x1.Idx → EReal) (x : Vec Ideal S5000x128 .f32) (w : Vec Ideal S128x64 .f32) (b : Vec Ideal S1x64 .f32)
    (g : Vec Ideal S64x64 .f32) (d : Vec Ideal S5000x1 .f32) (t : Fin 20)
    (hx : ∀ (p : Fin 5000) (j : Fin 128), x (ix2 p j) = X (ix2 (row t p) j))
    (hw : ∀ (j : Fin 128) (k : Fin 64), w (ix2 j k) = W (ix2 j k))
    (hb : ∀ k : Fin 64, b (ix2 (0 : Fin 1) k) = B (ix2 (0 : Fin 1) k))
    (hg : ∀ (k q : Fin 64), g (ix2 k q) = G (ix2 k q))
    (hd : ∀ p : Fin 5000, d (ix2 p (0 : Fin 1)) = D (ix2 (row t p) (0 : Fin 1)))
    (p : Fin 5000) (q : Fin 64) :
    k0_pay1 x w b g d (ix2 p q) = hw2At X W B G D (row t p) q := by
  rw [Tiles.proj_apply]
  unfold hw2At hwAt hidAt
  simp only [hx, hw, hb, hg, hd]

/-- The combine body on blocks that are rows `5000·t + p` of `A`, `H`, `D` and the whole of `Wo`, `Bg`, `Bo`. -/
theorem comb_block (A H : S100000x64.Idx → EReal) (D : S100000x1.Idx → EReal) (Wo : S64x1.Idx → EReal)
    (Bg : S1x64.Idx → EReal) (Bo : S1x1.Idx → EReal) (d : Vec Ideal S5000x1 .f32) (bg : Vec Ideal S1x64 .f32)
    (a : Vec Ideal S5000x64 .f32) (h : Vec Ideal S5000x64 .f32) (wo : Vec Ideal S64x1 .f32) (bo : Vec Ideal S1x1 .f32) (t : Fin 20)
    (ha : ∀ (p : Fin 5000) (k : Fin 64), a (ix2 p k) = A (ix2 (row t p) k))
    (hh : ∀ (p : Fin 5000) (k : Fin 64), h (ix2 p k) = H (ix2 (row t p) k))
    (hd : ∀ p : Fin 5000, d (ix2 p (0 : Fin 1)) = D (ix2 (row t p) (0 : Fin 1)))
    (hwo : ∀ (k : Fin 64) (u : Fin 1), wo (ix2 k u) = Wo (ix2 k u))
    (hbg : ∀ k : Fin 64, bg (ix2 (0 : Fin 1) k) = Bg (ix2 (0 : Fin 1) k))
    (hbo : ∀ u : Fin 1, bo (ix2 (0 : Fin 1) u) = Bo (ix2 (0 : Fin 1) u))
    (p : Fin 5000) (u : Fin 1) :
    k1_pay1 d bg a h wo bo (ix2 p u) = outAt A H D Wo Bg Bo (row t p) u := by
  rw [Tiles.comb_apply]
  unfold outAt
  simp only [ha, hh, hd, hwo, hbg, hbo]

/-! ## The projection launch -/

/-- The printed index maps over the twenty points: x, the scaling column and the output move with the point on the
    row axis; the weights and the bias stay. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ t.val < 20 :=
  (by decide +kernel : ∀ t : Fin grid0.N, _)

/-- A point of the projection launch as one of twenty. -/
def pt0 (t : Fin cfg0.N) : Fin 20 := ⟨t.val, (idx0 t).2.2.2.2.2.2.2.2.2.2.2.2⟩

/-- WHAT POINT `t` WRITES BACK is block `t` of `hw2Arr` of the arrays the launch was entered with. -/
theorem flushed0_eq (c : Dev nD) (t : Fin cfg0.N) :
    (dat0 V c).flushed 5 t = ((cfg0.win 5).blk t).view.read (Elt Ideal)
      (hw2Arr (V c main_arg0) (V c main_arg2) (V c main_v12) (V c main_arg4) (V c main_v11)) := by
  show (cfg0.win 5).cut (grid0.coords t) ((dat0 V c).after 5 t) = _
  rw [after0_5]
  unfold out0_5
  rw [View.canon_unit_zero offs_zero]
  simp only [View.ld_unit_zero (S := S5000x128) offs_zero, View.ld_unit_zero (S := S128x64) offs_zero,
    View.ld_unit_zero (S := S1x64) offs_zero, View.ld_unit_zero (S := S64x64) offs_zero, View.ld_unit_zero (S := S5000x1) offs_zero]
  obtain ⟨e00, e01, e10, e11, e20, e21, e30, e31, e40, e41, e50, e51, -⟩ := idx0 t
  refine funext fun (y : S5000x64.Idx) => ?_
  obtain ⟨p, q, rfl⟩ : ∃ (p : Fin 5000) (q : Fin 64), y = ix2 p q := ⟨y 0, y 1, eq_ix2 y⟩
  refine (proj_block (V c main_arg0) (V c main_arg2) (V c main_v12) (V c main_arg4) (V c main_v11)
    (iblk0 V c 0 t) (iblk0 V c 1 t) (iblk0 V c 2 t) (iblk0 V c 3 t) (iblk0 V c 4 t) (pt0 t) ?_ ?_ ?_ ?_ ?_ p q).trans ?_
  · intro p j
    show V c main_arg0 (((cfg0.win 0).blk t).view.emb (ix2 p j)) = V c main_arg0 (ix2 (row (pt0 t) p) j)
    refine congrArg (V c main_arg0) (funext fun a => Fin.ext ?_)
    match a with
    | ⟨0, _⟩ => show win0_0.index t (0 : Fin 2) * 5000 + 1 * p.val = 5000 * t.val + p.val; omega
    | ⟨1, _⟩ => show win0_0.index t (1 : Fin 2) * 128 + 1 * j.val = j.val; omega
  · intro j k
    show V c main_arg2 (((cfg0.win 1).blk t).view.emb (ix2 j k)) = V c main_arg2 (ix2 j k)
    refine congrArg (V c main_arg2) (funext fun a => Fin.ext ?_)
    match a with
    | ⟨0, _⟩ => show win0_1.index t (0 : Fin 2) * 128 + 1 * j.val = j.val; omega
    | ⟨1, _⟩ => show win0_1.index t (1 : Fin 2) * 64 + 1 * k.val = k.val; omega
  · intro k
    show V c main_v12 (((cfg0.win 2).blk t).view.emb (ix2 (0 : Fin 1) k)) = V c main_v12 (ix2 (0 : Fin 1) k)
    refine congrArg (V c main_v12) (funext fun a => Fin.ext ?_)
    match a with
    | ⟨0, _⟩ => show win0_2.index t (0 : Fin 2) * 1 + 1 * 0 = 0; omega
    | ⟨1, _⟩ => show win0_2.index t (1 : Fin 2) * 64 + 1 * k.val = k.val; omega
  · intro k q
    show V c main_arg4 (((cfg0.win 3).blk t).view.emb (ix2 k q)) = V c main_arg4 (ix2 k q)
    refine congrArg (V c main_arg4) (funext fun a => Fin.ext ?_)
    match a with
    | ⟨0, _⟩ => show win0_3.index t (0 : Fin 2) * 64 + 1 * k.val = k.val; omega
    | ⟨1, _⟩ => show win0_3.index t (1 : Fin 2) * 64 + 1 * q.val = q.val; omega
  · intro p
    show V c main_v11 (((cfg0.win 4).blk t).view.emb (ix2 p (0 : Fin 1))) = V c main_v11 (ix2 (row (pt0 t) p) (0 : Fin 1))
    refine congrArg (V c main_v11) (funext fun a => Fin.ext ?_)
    match a with
    | ⟨0, _⟩ => show win0_4.index t (0 : Fin 2) * 5000 + 1 * p.val = 5000 * t.val + p.val; omega
    | ⟨1, _⟩ => show win0_4.index t (1 : Fin 2) * 1 + 1 * 0 = 0; omega
  · show hw2At (V c main_arg0) (V c main_arg2) (V c main_v12) (V c main_arg4) (V c main_v11) (row (pt0 t) p) q
      = hw2At (V c main_arg0) (V c main_arg2) (V c main_v12) (V c main_arg4) (V c main_v11)
          ((((cfg0.win 5).blk t).view.emb (ix2 p q)) 0) ((((cfg0.win 5).blk t).view.emb (ix2 p q)) 1)
    refine congrArg₂ (hw2At (V c main_arg0) (V c main_arg2) (V c main_v12) (V c main_arg4) (V c main_v11)) (Fin.ext ?_) (Fin.ext ?_)
    · show 5000 * t.val + p.val = win0_5.index t (0 : Fin 2) * 5000 + 1 * p.val; omega
    · show q.val = win0_5.index t (1 : Fin 2) * 64 + 1 * q.val; omega

/-- An index of the output is in point `t`'s block iff each coordinate is in the block's range on its axis. -/
theorem mem_blk0 (t : Fin cfg0.N) (i : S100000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v13).slice (win0_5.rect t)).set ↔ _
  rw [View.set_slice_whole, Rect.mem_set_unit]
  exact Iff.rfl

/-- The twenty blocks cover the 100000 rows: row r is in the block of point r / 5000. -/
theorem cover0 (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hN : (i 0).val / 5000 < cfg0.N := by rw [show cfg0.N = 20 from N_0]; omega
  refine ⟨⟨(i 0).val / 5000, hN⟩, flush0_5 _, ?_⟩
  rw [mem_blk0]
  obtain ⟨-, -, -, -, -, -, -, -, -, -, e50, e51, -⟩ := idx0 ⟨(i 0).val / 5000, hN⟩
  have e50' : win0_5.index ⟨(i 0).val / 5000, hN⟩ (0 : Fin 2) = (i 0).val / 5000 := e50
  intro a
  match a with
  | ⟨0, _⟩ =>
    show win0_5.index ⟨(i 0).val / 5000, hN⟩ (0 : Fin 2) * 5000 ≤ (i 0).val
      ∧ (i 0).val < win0_5.index ⟨(i 0).val / 5000, hN⟩ (0 : Fin 2) * 5000 + 5000
    omega
  | ⟨1, _⟩ =>
    show win0_5.index ⟨(i 0).val / 5000, hN⟩ (1 : Fin 2) * 64 ≤ (i 1).val
      ∧ (i 1).val < win0_5.index ⟨(i 0).val / 5000, hN⟩ (1 : Fin 2) * 64 + 64
    omega

/-- THE PROJECTION LAUNCH'S OUTPUT ARRAY after its write-backs. -/
theorem final0 (c : Dev nD) :
    (dat0 V c).arrAt 5 cfg0.N = hw2Arr (V c main_arg0) (V c main_arg2) (V c main_v12) (V c main_arg4) (V c main_v11) :=
  (dat0 V c).arrAt_eq_of_cover 5 _ (fun t _ => flushed0_eq V c t) cover0

/-! ## The combine launch -/

theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ t.val < 20 :=
  (by decide +kernel : ∀ t : Fin grid1.N, _)

/-- A point of the combine launch as one of twenty. -/
def pt1 (t : Fin cfg1.N) : Fin 20 := ⟨t.val, (idx1 t).2.2.2.2.2.2.2.2.2.2.2.2.2.2⟩

/-- WHAT POINT `t` WRITES BACK is block `t` of `outArr` of the arrays the launch was entered with. -/
theorem flushed1_eq (c : Dev nD) (t : Fin cfg1.N) :
    (dat1 V c).flushed 6 t = ((cfg1.win 6).blk t).view.read (Elt Ideal)
      (outArr (V c main_v23) (V c main_v13) (V c main_v11) (V c main_arg6) (V c main_v24) (V c main_v25)) := by
  show (cfg1.win 6).cut (grid1.coords t) ((dat1 V c).after 6 t) = _
  rw [after1_6]
  unfold out1_6
  rw [View.canon_unit_zero offs_zero]
  simp only [View.ld_unit_zero (S := S5000x64) offs_zero, View.ld_unit_zero (S := S5000x1) offs_zero,
    View.ld_unit_zero (S := S1x64) offs_zero, View.ld_unit_zero (S := S64x1) offs_zero, View.ld_unit_zero (S := S1x1) offs_zero]
  obtain ⟨e00, e01, e10, e11, e20, e21, e30, e31, e40, e41, e50, e51, e60, e61, -⟩ := idx1 t
  refine funext fun (y : S5000x1.Idx) => ?_
  obtain ⟨p, u, rfl⟩ : ∃ (p : Fin 5000) (u : Fin 1), y = ix2 p u := ⟨y 0, y 1, eq_ix2 y⟩
  refine (comb_block (V c main_v23) (V c main_v13) (V c main_v11) (V c main_arg6) (V c main_v24) (V c main_v25)
    (iblk1 V c 2 t) (iblk1 V c 4 t) (iblk1 V c 0 t) (iblk1 V c 1 t) (iblk1 V c 3 t) (iblk1 V c 5 t) (pt1 t) ?_ ?_ ?_ ?_ ?_ ?_ p u).trans ?_
  · intro p k
    show V c main_v23 (((cfg1.win 0).blk t).view.emb (ix2 p k)) = V c main_v23 (ix2 (row (pt1 t) p) k)
    refine congrArg (V c main_v23) (funext fun a => Fin.ext ?_)
    match a with
    | ⟨0, _⟩ => show win1_0.index t (0 : Fin 2) * 5000 + 1 * p.val = 5000 * t.val + p.val; omega
    | ⟨1, _⟩ => show win1_0.index t (1 : Fin 2) * 64 + 1 * k.val = k.val; omega
  · intro p k
    show V c main_v13 (((cfg1.win 1).blk t).view.emb (ix2 p k)) = V c main_v13 (ix2 (row (pt1 t) p) k)
    refine congrArg (V c main_v13) (funext fun a => Fin.ext ?_)
    match a with
    | ⟨0, _⟩ => show win1_1.index t (0 : Fin 2) * 5000 + 1 * p.val = 5000 * t.val + p.val; omega
    | ⟨1, _⟩ => show win1_1.index t (1 : Fin 2) * 64 + 1 * k.val = k.val; omega
  · intro p
    show V c main_v11 (((cfg1.win 2).blk t).view.emb (ix2 p (0 : Fin 1))) = V c main_v11 (ix2 (row (pt1 t) p) (0 : Fin 1))
    refine congrArg (V c main_v11) (funext fun a => Fin.ext ?_)
    match a with
    | ⟨0, _⟩ => show win1_2.index t (0 : Fin 2) * 5000 + 1 * p.val = 5000 * t.val + p.val; omega
    | ⟨1, _⟩ => show win1_2.index t (1 : Fin 2) * 1 + 1 * 0 = 0; omega
  · intro k u
    show V c main_arg6 (((cfg1.win 3).blk t).view.emb (ix2 k u)) = V c main_arg6 (ix2 k u)
    refine congrArg (V c main_arg6) (funext fun a => Fin.ext ?_)
    match a with
    | ⟨0, _⟩ => show win1_3.index t (0 : Fin 2) * 64 + 1 * k.val = k.val; omega
    | ⟨1, _⟩ => show win1_3.index t (1 : Fin 2) * 1 + 1 * u.val = u.val; omega
  · intro k
    show V c main_v24 (((cfg1.win 4).blk t).view.emb (ix2 (0 : Fin 1) k)) = V c main_v24 (ix2 (0 : Fin 1) k)
    refine congrArg (V c main_v24) (funext fun a => Fin.ext ?_)
    match a with
    | ⟨0, _⟩ => show win1_4.index t (0 : Fin 2) * 1 + 1 * 0 = 0; omega
    | ⟨1, _⟩ => show win1_4.index t (1 : Fin 2) * 64 + 1 * k.val = k.val; omega
  · intro u
    show V c main_v25 (((cfg1.win 5).blk t).view.emb (ix2 (0 : Fin 1) u)) = V c main_v25 (ix2 (0 : Fin 1) u)
    refine congrArg (V c main_v25) (funext fun a => Fin.ext ?_)
    match a with
    | ⟨0, _⟩ => show win1_5.index t (0 : Fin 2) * 1 + 1 * 0 = 0; omega
    | ⟨1, _⟩ => show win1_5.index t (1 : Fin 2) * 1 + 1 * u.val = u.val; omega
  · show outAt (V c main_v23) (V c main_v13) (V c main_v11) (V c main_arg6) (V c main_v24) (V c main_v25) (row (pt1 t) p) u
      = outAt (V c main_v23) (V c main_v13) (V c main_v11) (V c main_arg6) (V c main_v24) (V c main_v25)
          ((((cfg1.win 6).blk t).view.emb (ix2 p u)) 0) ((((cfg1.win 6).blk t).view.emb (ix2 p u)) 1)
    refine congrArg₂ (outAt (V c main_v23) (V c main_v13) (V c main_v11) (V c main_arg6) (V c main_v24) (V c main_v25)) (Fin.ext ?_) (Fin.ext ?_)
    · show 5000 * t.val + p.val = win1_6.index t (0 : Fin 2) * 5000 + 1 * p.val; omega
    · show u.val = win1_6.index t (1 : Fin 2) * 1 + 1 * u.val; omega

theorem mem_blk1 (t : Fin cfg1.N) (i : S100000x1.Idx) :
    i ∈ ((cfg1.win 6).blk t).view.set ↔ ∀ a : Fin 2, win1_6.index t a * S5000x1.size a ≤ (i a).val
      ∧ (i a).val < win1_6.index t a * S5000x1.size a + S5000x1.size a := by
  show i ∈ ((View.whole main_v26).slice (win1_6.rect t)).set ↔ _
  rw [View.set_slice_whole, Rect.mem_set_unit]
  exact Iff.rfl

theorem cover1 (i : S100000x1.Idx) :
    ∃ t : Fin cfg1.N, (cfg1.win 6).flush t = true ∧ i ∈ ((cfg1.win 6).blk t).view.set := by
  have hi0 : (i 0).val < 100000 := (i 0).isLt
  have hi1 : (i 1).val < 1 := (i 1).isLt
  have hN : (i 0).val / 5000 < cfg1.N := by rw [show cfg1.N = 20 from N_1]; omega
  refine ⟨⟨(i 0).val / 5000, hN⟩, flush1_6 _, ?_⟩
  rw [mem_blk1]
  obtain ⟨-, -, -, -, -, -, -, -, -, -, -, -, e60, e61, -⟩ := idx1 ⟨(i 0).val / 5000, hN⟩
  have e60' : win1_6.index ⟨(i 0).val / 5000, hN⟩ (0 : Fin 2) = (i 0).val / 5000 := e60
  intro a
  match a with
  | ⟨0, _⟩ =>
    show win1_6.index ⟨(i 0).val / 5000, hN⟩ (0 : Fin 2) * 5000 ≤ (i 0).val
      ∧ (i 0).val < win1_6.index ⟨(i 0).val / 5000, hN⟩ (0 : Fin 2) * 5000 + 5000
    omega
  | ⟨1, _⟩ =>
    show win1_6.index ⟨(i 0).val / 5000, hN⟩ (1 : Fin 2) * 1 ≤ (i 1).val
      ∧ (i 1).val < win1_6.index ⟨(i 0).val / 5000, hN⟩ (1 : Fin 2) * 1 + 1
    omega

/-- THE COMBINE LAUNCH'S OUTPUT ARRAY after its write-backs. -/
theorem final1 (c : Dev nD) :
    (dat1 V c).arrAt 6 cfg1.N
      = outArr (V c main_v23) (V c main_v13) (V c main_v11) (V c main_arg6) (V c main_v24) (V c main_v25) :=
  (dat1 V c).arrAt_eq_of_cover 6 _ (fun t _ => flushed1_eq V c t) cover1

end Cert.KernelIdeal.Arrays

end
-- ==== Proof.KernelHost.lean ====
/-
  The host operations of the two-launch program, stretch by stretch, from any buffer contents.

  Before the projection launch: the two rows of the edge index array as word lists, the degree by an accumulating scatter
  of ones over the arrival words plus one, its reciprocal square root as a column, the bias as a row.
  Between the launches: the projected rows gathered along the (wrapped) source words and accumulated along the arrival
  words, and two more biases re-viewed.
-/
import proofs.«113121_j6760278523984_2_alg».proof.Proof.Gen.KernelIdeal.Frame
import Idealize.ShloMosaic.Lib.StableHlo.Run
import Idealize.ShloMosaic.PureOps.Ideal.Laws

set_option maxRecDepth 16384

noncomputable section

namespace Cert.KernelIdeal.HostOps

open Cert.KernelIdeal Cert.KernelIdeal.Gen Idealize.ShloMosaic Idealize.ShloMosaic.TcCoe Idealize.SL.Sem
open Idealize.ShloMosaic.StableHlo

/-- The source words: row 0 of the edge index array, as a list. -/
def srcWords (ei : IVec S2x1600000 32) : IVec S1600000 32 :=
  shapeCast S1600000 (extractStridedSlice S1x1600000 ![0, 0] ei slices_S2x1600000_S1x1600000_0_0) shapeCasts_S1x1600000_S1600000

/-- The arrival words: row 1. -/
def dstWords (ei : IVec S2x1600000 32) : IVec S1600000 32 :=
  shapeCast S1600000 (extractStridedSlice S1x1600000 ![1, 0] ei slices_S2x1600000_S1x1600000_1_0) shapeCasts_S1x1600000_S1600000

/-- The per-node weight as a column: the reciprocal square root of (ones accumulated along the arrival words) + 1. -/
def dinvCol (ei : IVec S2x1600000 32) : FVec Ideal S100000x1 .f32 :=
  shapeCast S100000x1
    (Host.rsqrt
      (addf
        (Host.scatterAdd scatter_S100000_S1600000x1_S1600000_n_0_0_1
          (broadcastInDim S100000 ![] bcast_S_S100000 (constant (F := Ideal) S_ .f32 0x00000000#32))
          (broadcastInDim S1600000x1 ![0] bcast_S1600000_S1600000x1_0 (dstWords ei))
          (broadcastInDim S1600000 ![] bcast_S_S1600000 (constant (F := Ideal) S_ .f32 0x3F800000#32)))
        (broadcastInDim S100000 ![] bcast_S_S100000 (constant (F := Ideal) S_ .f32 0x3F800000#32))))
    shapeCasts_S100000_S100000x1

/-- The rows of `H` gathered along the wrapped source words and accumulated along the arrival words. -/
def aggArr (H : FVec Ideal S100000x64 .f32) (src dst : IVec S1600000 32) : FVec Ideal S100000x64 .f32 :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (Host.gather gather_S100000x64_S1600000x1_S1600000x64_1_0_n_n_0_1_164 H
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32)))
          src)))

variable (W : Valuation τ sig (Elt Ideal))

/-! ## The stretch before the projection launch -/

theorem pre_v1 : StableHlo.after (hostOps0 (F := Ideal)) W (Proc.devRef .tc main_v1) = srcWords (W (Proc.devRef .tc main_arg1)) := by
  after_results; rfl
theorem pre_v3 : StableHlo.after (hostOps0 (F := Ideal)) W (Proc.devRef .tc main_v3) = dstWords (W (Proc.devRef .tc main_arg1)) := by
  after_results; rfl
theorem pre_v11 : StableHlo.after (hostOps0 (F := Ideal)) W (Proc.devRef .tc main_v11) = dinvCol (W (Proc.devRef .tc main_arg1)) := by
  after_results; rfl
theorem pre_v12 : StableHlo.after (hostOps0 (F := Ideal)) W (Proc.devRef .tc main_v12)
    = shapeCast S1x64 (W (Proc.devRef .tc main_arg3)) shapeCasts_S64_S1x64 := by
  after_results; rfl
theorem pre_arg0 : StableHlo.after (hostOps0 (F := Ideal)) W (Proc.devRef .tc main_arg0) = W (Proc.devRef .tc main_arg0) := by
  after_results
theorem pre_arg2 : StableHlo.after (hostOps0 (F := Ideal)) W (Proc.devRef .tc main_arg2) = W (Proc.devRef .tc main_arg2) := by
  after_results
theorem pre_arg4 : StableHlo.after (hostOps0 (F := Ideal)) W (Proc.devRef .tc main_arg4) = W (Proc.devRef .tc main_arg4) := by
  after_results
theorem pre_arg5 : StableHlo.after (hostOps0 (F := Ideal)) W (Proc.devRef .tc main_arg5) = W (Proc.devRef .tc main_arg5) := by
  after_results
theorem pre_arg6 : StableHlo.after (hostOps0 (F := Ideal)) W (Proc.devRef .tc main_arg6) = W (Proc.devRef .tc main_arg6) := by
  after_results
theorem pre_arg7 : StableHlo.after (hostOps0 (F := Ideal)) W (Proc.devRef .tc main_arg7) = W (Proc.devRef .tc main_arg7) := by
  after_results

/-! ## The stretch between the launches -/

theorem mid_v23 : StableHlo.after (hostOps1 (F := Ideal)) W (Proc.devRef .tc main_v23)
    = aggArr (W (Proc.devRef .tc main_v13)) (W (Proc.devRef .tc main_v1)) (W (Proc.devRef .tc main_v3)) := by
  after_results; rfl
theorem mid_v13 : StableHlo.after (hostOps1 (F := Ideal)) W (Proc.devRef .tc main_v13) = W (Proc.devRef .tc main_v13) := by
  after_results
theorem mid_v11 : StableHlo.after (hostOps1 (F := Ideal)) W (Proc.devRef .tc main_v11) = W (Proc.devRef .tc main_v11) := by
  after_results
theorem mid_arg6 : StableHlo.after (hostOps1 (F := Ideal)) W (Proc.devRef .tc main_arg6) = W (Proc.devRef .tc main_arg6) := by
  after_results
theorem mid_v24 : StableHlo.after (hostOps1 (F := Ideal)) W (Proc.devRef .tc main_v24)
    = shapeCast S1x64 (W (Proc.devRef .tc main_arg5)) shapeCasts_S64_S1x64 := by
  after_results; rfl
theorem mid_v25 : StableHlo.after (hostOps1 (F := Ideal)) W (Proc.devRef .tc main_v25)
    = shapeCast S1x1 (W (Proc.devRef .tc main_arg7)) shapeCasts_S1_S1x1 := by
  after_results; rfl

end Cert.KernelIdeal.HostOps

end
-- ==== Proof.LibRealEdgeSums.lean ====
/-
  The two rearrangements behind a normalised graph convolution, over the extended reals.

  Nodes `v`, edges `e`; every edge has a source row `s e`; `In v` is the set of edges arriving at `v`, and `g e` names
  the arrival node again (`g e = v` for `e ∈ In v`). With a per-node weight `d`:

  * scaling the rows before summing over the arriving edges, scaling the sum by `d v` and THEN multiplying by a matrix
    `W` gives the same as multiplying each source row by `W` first and weighting each edge by `d (s e) * d (g e)`;
  * summing rows already weighted by `d (s e)` and scaling the sum by `d v` gives the same as weighting each edge by
    `d (s e) * d (g e)`.

  Both are distributivity and an exchange of two finite sums. On the extended reals distributivity fails at infinities,
  so the laws are stated for entries that are real numbers and proved in ℝ; the closure lemmas `IsReal.*` carry "is a
  real number" through sums, products and maxima.
-/
import Idealize.ShloMosaic.PureOps.Ideal.Laws
import Mathlib.Algebra.BigOperators.Group.Finset.Sigma
import Mathlib.Tactic.Ring

open scoped BigOperators

namespace Cert.GcnAlgebra

/-- An extended real that is a real number. -/
def IsReal (a : EReal) : Prop := ∃ r : ℝ, a = (r : EReal)

theorem IsReal.coe (r : ℝ) : IsReal (r : EReal) := ⟨r, rfl⟩
theorem IsReal.zero : IsReal (0 : EReal) := ⟨0, rfl⟩
theorem IsReal.add {a b : EReal} (ha : IsReal a) (hb : IsReal b) : IsReal (a + b) := by
  obtain ⟨r, rfl⟩ := ha; obtain ⟨t, rfl⟩ := hb; exact ⟨r + t, (EReal.coe_add r t).symm⟩
theorem IsReal.mul {a b : EReal} (ha : IsReal a) (hb : IsReal b) : IsReal (a * b) := by
  obtain ⟨r, rfl⟩ := ha; obtain ⟨t, rfl⟩ := hb; exact ⟨r * t, (EReal.coe_mul r t).symm⟩
theorem IsReal.max {a b : EReal} (ha : IsReal a) (hb : IsReal b) : IsReal (max a b) := by
  obtain ⟨r, rfl⟩ := ha; obtain ⟨t, rfl⟩ := hb; exact ⟨Max.max r t, (EReal.coe_strictMono.monotone.map_max).symm⟩

/-- The coercion of a finite real sum is the sum of the coercions. -/
theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

theorem IsReal.sum {ι : Type*} (S : Finset ι) (f : ι → EReal) (h : ∀ i ∈ S, IsReal (f i)) : IsReal (∑ i ∈ S, f i) := by
  classical
  induction S using Finset.induction_on with
  | empty => simpa using IsReal.zero
  | insert a S ha ih =>
    rw [Finset.sum_insert ha]
    exact (h a (Finset.mem_insert_self a S)).add (ih fun i hi => h i (Finset.mem_insert_of_mem hi))

section Laws
variable {N E A B : ℕ} (s g : Fin E → Fin N) (In : Fin N → Finset (Fin E))
  (hg : ∀ v, ∀ e ∈ In v, g e = v) (d : Fin N → EReal) (hd : ∀ v, IsReal (d v))

include hg hd

/-- AGGREGATE THEN TRANSFORM is TRANSFORM THEN AGGREGATE: for real entries, the pre-scaled rows summed over the
    arriving edges, scaled by `d v` and multiplied by `W`, are the edge sum of the transformed source rows weighted by
    `d (s e) * d (g e)`. -/
theorem aggregate_then_transform (x : Fin N → Fin A → EReal) (hx : ∀ v f, IsReal (x v f))
    (W : Fin A → Fin B → EReal) (hW : ∀ f j, IsReal (W f j)) (v : Fin N) (j : Fin B) :
    ∑ f, ((∑ e ∈ In v, x (s e) f * d (s e)) * d v) * W f j
      = ∑ e ∈ In v, (∑ f, x (s e) f * W f j) * (d (s e) * d (g e)) := by
  choose xr hxr using hx
  choose Wr hWr using hW
  choose dr hdr using hd
  have hR : (∑ f, ((∑ e ∈ In v, xr (s e) f * dr (s e)) * dr v) * Wr f j : ℝ)
      = ∑ e ∈ In v, (∑ f, xr (s e) f * Wr f j) * (dr (s e) * dr v) := by
    simp only [Finset.sum_mul]
    rw [Finset.sum_comm]
    refine Finset.sum_congr rfl fun e _ => Finset.sum_congr rfl fun f _ => ?_
    ring
  have hL : ∑ f, ((∑ e ∈ In v, x (s e) f * d (s e)) * d v) * W f j
      = ((∑ f, ((∑ e ∈ In v, xr (s e) f * dr (s e)) * dr v) * Wr f j : ℝ) : EReal) := by
    simp only [hxr, hWr, hdr, coe_sum, EReal.coe_mul]
  have hRR : ∑ e ∈ In v, (∑ f, x (s e) f * W f j) * (d (s e) * d (g e))
      = ((∑ e ∈ In v, (∑ f, xr (s e) f * Wr f j) * (dr (s e) * dr v) : ℝ) : EReal) := by
    rw [coe_sum]
    refine Finset.sum_congr rfl fun e he => ?_
    rw [hg v e he]
    simp only [hxr, hWr, hdr, coe_sum, EReal.coe_mul]
  rw [hL, hRR, hR]

/-- SCALE AFTER THE SUM is WEIGHT EACH EDGE: for real entries, rows weighted by `d (s e)`, summed over the arriving
    edges and scaled by `d v`, are the edge sum weighted by `d (s e) * d (g e)`. -/
theorem scale_after_sum (T : Fin N → EReal) (hT : ∀ u, IsReal (T u)) (v : Fin N) :
    (∑ e ∈ In v, T (s e) * d (s e)) * d v = ∑ e ∈ In v, T (s e) * (d (s e) * d (g e)) := by
  choose Tr hTr using hT
  choose dr hdr using hd
  have hR : ((∑ e ∈ In v, Tr (s e) * dr (s e)) * dr v : ℝ) = ∑ e ∈ In v, Tr (s e) * (dr (s e) * dr v) := by
    rw [Finset.sum_mul]
    exact Finset.sum_congr rfl fun e _ => by ring
  have hL : (∑ e ∈ In v, T (s e) * d (s e)) * d v = (((∑ e ∈ In v, Tr (s e) * dr (s e)) * dr v : ℝ) : EReal) := by
    simp only [hTr, hdr, coe_sum, EReal.coe_mul]
  have hRR : ∑ e ∈ In v, T (s e) * (d (s e) * d (g e)) = ((∑ e ∈ In v, Tr (s e) * (dr (s e) * dr v) : ℝ) : EReal) := by
    rw [coe_sum]
    refine Finset.sum_congr rfl fun e he => ?_
    rw [hg v e he]
    simp only [hTr, hdr, EReal.coe_mul]
  rw [hL, hRR, hR]

end Laws

end Cert.GcnAlgebra
-- ==== Proof.LibRowGather.lean ====
/-
  Rows picked and rows accumulated through an integer index column.

  A gather whose start indices form a column `[E, 1]` and whose slices are whole rows reads, at `(e, c)`, the operand's
  row number `idx (e, 0)` — the word read as a signed integer and clamped into `[0, N - 1]` — at column `c`. An
  accumulating scatter with the same index column sends update row `e` to the operand row whose number is that signed
  integer, NOT clamped, and drops the row when the number is negative or at least `N`; so the result at `(v, c)` is
  the operand there plus the sum of the updates `(e, c)` over the edges `e` whose integer is exactly `v`. The same two
  readings hold for a flat operand `[N]` (no column coordinate). Stated for any extents `N`, `E`, `C`.
-/
import Idealize.ShloMosaic.Lib.ValueIdx
import Idealize.ShloMosaic.PureOps.Ideal.Laws

open scoped BigOperators

noncomputable section

namespace Cert.RowIndex

open Idealize.ShloMosaic Idealize.ShloMosaic.ValueIdx

variable {α : Type}

/-- A start index read as a signed integer and clamped into `[0, N - 1]`. -/
def clampRow (N : Nat) (hN : 0 < N) {w : Nat} (b : BitVec w) : Fin N :=
  ⟨min b.toInt.toNat (N - 1), by omega⟩

/-! ## Gathering whole rows of an `[N, C]` operand -/

/-- The dimension numbers of "row `idx (e, 0)` of the operand, whole": offset axis 1, collapsed axis 0, the start
    index names axis 0, the index vector is the column's unit axis. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER AT `(e, c)`: the operand at the clamped row and the same column. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGather N E C wf) x idx (ix2 e c) = x (ix2 (clampRow N hN (idx (ix2 e (0 : Fin 1)))) c) := by
  unfold Host.gather
  congr 1
  funext a
  refine Fin.ext ?_
  match a with
  | ⟨0, _⟩ =>
    show (rowGather N E C wf).start (ix2 e c) idx 0 + (rowGather N E C wf).batchCoord (ix2 e c) 0
      + (rowGather N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e c) ⟨List.idxOf (0 : Fin 2) (rowGather N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather N E C wf).start (ix2 e c) idx 1 + (rowGather N E C wf).batchCoord (ix2 e c) 1
      + (rowGather N E C wf).offCoord (ix2 e c) 1 = c.val
    rw [GatherDims.batchCoord_eq_zero _ _ _ List.not_mem_nil]
    have hst : (rowGather N E C wf).start (ix2 e c) idx 1 = 0 := by
      unfold GatherDims.start
      rw [dif_neg (show (1 : Fin 2) ∉ (rowGather N E C wf).startIndexMap from
        fun h => absurd (congrArg Fin.val (List.mem_singleton.mp h)) Nat.one_ne_zero)]
    have hof : (rowGather N E C wf).offCoord (ix2 e c) 1 = c.val := by
      unfold GatherDims.offCoord
      rw [dif_pos ((GatherDims.mem_sKept _ _).mpr
        ⟨fun h => absurd (congrArg Fin.val (List.mem_singleton.mp h)) Nat.one_ne_zero, List.not_mem_nil⟩)]
      rfl
    rw [hst, hof]
    omega

/-! ## Gathering entries of a flat `[N]` operand -/

/-- The dimension numbers of "entry `idx (e, 0)` of a flat operand". -/
abbrev flatGather (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE FLAT GATHER AT `e`: the operand at the clamped entry. -/
theorem gather_flat_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (flatGather N E wf) x idx (ix1 e) = x (ix1 (clampRow N hN (idx (ix2 e (0 : Fin 1))))) := by
  unfold Host.gather
  congr 1
  funext a
  obtain rfl : a = 0 := Subsingleton.elim _ _
  refine Fin.ext ?_
  show (flatGather N E wf).start (ix1 e) idx 0 + (flatGather N E wf).batchCoord (ix1 e) 0
    + (flatGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGather N E wf).startIndexMap from List.mem_singleton.mpr rfl)]
  have hsi : (flatGather N E wf).siIdx (ix1 e) ⟨List.idxOf (0 : Fin 1) (flatGather N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Cert.RowIndex

end
-- ==== Proof.EdgeSpec.lean ====
/-
  The graph convolution with symmetric normalisation, written two ways over the extended reals, and the law that joins them.

  Nodes v < 100000, edges e < 1600000 with a source word and an arrival word each. An edge ARRIVES at v when its
  arrival word, read as a signed integer, is exactly v (an accumulating scatter drops every other word); an edge's SOURCE
  node is its source word wrapped (a negative word has 100000 added) and clamped into the node range (a gather's
  reading of a start index). deg v = 1 + the number of edges arriving at v, dinv v = deg v ^ (-1/2).

  FACTORED (one weight per row, the self loop as a separate term):
     out v k = dinv v · ((0 + ∑ e arriving at v, dinv (src e) · hw (src e) k) + dinv v · hw v k)
  EDGE BY EDGE (the self loops appended to the edge list as 100000 more edges j ↦ j, one weight per edge):
     out v k = 0 + ∑ e' arriving at v among the 1700000, hw (src e') k · (dinv (src e') · dinv (dst e')).
  The two agree when hw and dinv are real numbers: distributivity, which fails at infinities, is the one law used, and
  an edge arriving at v has dst e = v. dinv is real because deg v ≥ 1; hw is real when x, W_in, b_in, W_g are.
-/
import proofs.«113121_j6760278523984_2_alg».proof.Proof.LibRealEdgeSums
import proofs.«113121_j6760278523984_2_alg».proof.Proof.LibRowGather
import Idealize.ShloMosaic.Lib.ValueIdx
import Idealize.ShloMosaic.PureOps.Ideal.Laws

open scoped BigOperators

noncomputable section

namespace Cert.Gcn

open Idealize.ShloMosaic Cert.GcnAlgebra

/-- The words of zero and of one, as printed. -/
def zeroE : EReal := Ideal.ofBits .f32 0x00000000#32
def oneE : EReal := Ideal.ofBits .f32 0x3F800000#32

theorem zeroE_eq : zeroE = 0 := Ideal.ofBits_zero_f32
theorem oneE_eq : oneE = 1 := by
  unfold oneE
  simp [Ideal.ofBits, Ideal.ieee, -EReal.coe_mul]; norm_num

/-! ## Words as nodes -/

/-- A negative word has the node count added (an index counted from the end). -/
def wrapW (w : BitVec 32) : BitVec 32 := Scalar.select (IntOp.cmpi .slt w 0#32) (IntOp.addi w 100000#32) w

/-- The node a word names when it is used as a gather's start index. -/
def nodeOf (w : BitVec 32) : Fin 100000 := Cert.RowIndex.clampRow 100000 (by norm_num) (wrapW w)

theorem wrapW_of_nonneg (w : BitVec 32) (h : 0 ≤ w.toInt) : wrapW w = w := by
  unfold wrapW
  have hs : w.slt 0#32 = false := by
    have h0 : (0#32 : BitVec 32).toInt = 0 := by decide
    simp only [BitVec.slt, h0]
    exact decide_eq_false (by omega)
  show Scalar.select (BitVec.ofBool (w.slt 0#32)) _ _ = _
  rw [hs]
  exact if_neg (by decide)

/-- A word whose signed integer is the node `v` names `v`. -/
theorem nodeOf_of_toInt (w : BitVec 32) (v : Fin 100000) (h : w.toInt = (v.val : ℤ)) : nodeOf w = v := by
  unfold nodeOf
  rw [wrapW_of_nonneg w (by omega)]
  unfold Cert.RowIndex.clampRow
  refine Fin.ext ?_
  show min w.toInt.toNat (100000 - 1) = v.val
  have := v.isLt
  omega

theorem toInt_ofNat_node (j : ℕ) (h : j < 100000) : (BitVec.ofNat 32 j).toInt = (j : ℤ) := by
  have h1 : (BitVec.ofNat 32 j).toNat = j := by
    rw [BitVec.toNat_ofNat]; exact Nat.mod_eq_of_lt (by omega)
  rw [BitVec.toInt_eq_toNat_cond, h1, if_pos (by omega)]

/-! ## The edge lists -/

/-- The edge list with the self loops appended: word `e` of the list below 1600000, the node's own number above. -/
def joinW (a : Fin 1600000 → BitVec 32) (e : Fin 1700000) : BitVec 32 :=
  if h : e.val < 1600000 then a ⟨e.val, h⟩ else BitVec.ofNat 32 (e.val - 1600000)

def castE (e : Fin 1600000) : Fin 1700000 := ⟨e.val, by have := e.isLt; omega⟩
def loopE (v : Fin 100000) : Fin 1700000 := ⟨1600000 + v.val, by have := v.isLt; omega⟩

theorem castE_injective : Function.Injective castE := fun a b h => by
  have h' : (castE a).val = (castE b).val := congrArg Fin.val h
  exact Fin.ext h'

theorem joinW_castE (a : Fin 1600000 → BitVec 32) (e : Fin 1600000) : joinW a (castE e) = a e := by
  unfold joinW castE
  rw [dif_pos e.isLt]

theorem joinW_loopE (a : Fin 1600000 → BitVec 32) (v : Fin 100000) : joinW a (loopE v) = BitVec.ofNat 32 v.val := by
  unfold joinW loopE
  rw [dif_neg (show ¬ (1600000 + v.val < 1600000) by omega)]
  show BitVec.ofNat 32 (1600000 + v.val - 1600000) = _
  rw [Nat.add_sub_cancel_left]

/-- The edges arriving at `v`. -/
def arrive (dstW : Fin 1600000 → BitVec 32) (v : Fin 100000) : Finset (Fin 1600000) :=
  Finset.univ.filter fun e => (dstW e).toInt = (v.val : ℤ)

/-- The edges of the extended list arriving at `v`. -/
def arriveR (dstW : Fin 1600000 → BitVec 32) (v : Fin 100000) : Finset (Fin 1700000) :=
  Finset.univ.filter fun e => (joinW dstW e).toInt = (v.val : ℤ)

/-- The extended list's arrivals at `v` are the list's arrivals and the one self loop of `v`. -/
theorem arriveR_eq (dstW : Fin 1600000 → BitVec 32) (v : Fin 100000) :
    arriveR dstW v = insert (loopE v) ((arrive dstW v).map ⟨castE, castE_injective⟩) := by
  ext e
  simp only [arriveR, arrive, Finset.mem_filter, Finset.mem_univ, true_and, Finset.mem_insert, Finset.mem_map,
    Function.Embedding.coeFn_mk]
  constructor
  · intro h
    by_cases hlt : e.val < 1600000
    · right
      refine ⟨⟨e.val, hlt⟩, ?_, Fin.ext rfl⟩
      unfold joinW at h
      rwa [dif_pos hlt] at h
    · left
      unfold joinW at h
      rw [dif_neg hlt, toInt_ofNat_node _ (by have := e.isLt; omega)] at h
      refine Fin.ext ?_
      show e.val = 1600000 + v.val
      omega
  · rintro (rfl | ⟨e0, h0, rfl⟩)
    · rw [joinW_loopE, toInt_ofNat_node _ v.isLt]
    · rw [joinW_castE]; exact h0

theorem loopE_not_mem (dstW : Fin 1600000 → BitVec 32) (v : Fin 100000) :
    loopE v ∉ (arrive dstW v).map ⟨castE, castE_injective⟩ := by
  simp only [Finset.mem_map, Function.Embedding.coeFn_mk, not_exists, not_and]
  intro e _ h
  have := congrArg Fin.val h
  have he := e.isLt
  simp only [castE, loopE] at this
  omega

/-- A sum over the extended list's arrivals splits into the list's arrivals and the self loop. -/
theorem sum_arriveR (dstW : Fin 1600000 → BitVec 32) (v : Fin 100000) (f : Fin 1700000 → EReal) :
    ∑ e ∈ arriveR dstW v, f e = ∑ e ∈ arrive dstW v, f (castE e) + f (loopE v) := by
  rw [arriveR_eq, Finset.sum_insert (loopE_not_mem dstW v), Finset.sum_map, add_comm]
  rfl

/-! ## Degrees and weights -/

def degK (dstW : Fin 1600000 → BitVec 32) (v : Fin 100000) : EReal := (zeroE + ∑ _e ∈ arrive dstW v, oneE) + oneE
def dinvK (dstW : Fin 1600000 → BitVec 32) (v : Fin 100000) : EReal := Ideal.rsqrt (degK dstW v)
def degR (dstW : Fin 1600000 → BitVec 32) (v : Fin 100000) : EReal := zeroE + ∑ _e ∈ arriveR dstW v, oneE
def dinvR (dstW : Fin 1600000 → BitVec 32) (v : Fin 100000) : EReal := Ideal.rsqrt (degR dstW v)

/-- Counting the self loop among the edges or adding one afterwards gives the same degree. -/
theorem degR_eq (dstW : Fin 1600000 → BitVec 32) (v : Fin 100000) : degR dstW v = degK dstW v := by
  unfold degR degK
  rw [sum_arriveR dstW v (fun _ => oneE), add_assoc]

theorem dinvR_eq (dstW : Fin 1600000 → BitVec 32) (v : Fin 100000) : dinvR dstW v = dinvK dstW v := by
  unfold dinvR dinvK; rw [degR_eq]

/-- The degree is a positive real. -/
theorem degK_real (dstW : Fin 1600000 → BitVec 32) (v : Fin 100000) :
    ∃ r : ℝ, 0 < r ∧ degK dstW v = (r : EReal) := by
  refine ⟨((arrive dstW v).card : ℝ) + 1, by positivity, ?_⟩
  unfold degK
  rw [zeroE_eq, oneE_eq, zero_add]
  have hs : ∑ _e ∈ arrive dstW v, (1 : EReal) = (((arrive dstW v).card : ℝ) : EReal) := by
    rw [show (1 : EReal) = ((1 : ℝ) : EReal) from rfl, ← coe_sum, Finset.sum_const, nsmul_eq_mul, mul_one]
  rw [hs, EReal.coe_add, EReal.coe_one]

/-- So the weight is a real number. -/
theorem isReal_dinvK (dstW : Fin 1600000 → BitVec 32) (v : Fin 100000) : IsReal (dinvK dstW v) := by
  obtain ⟨r, hr, he⟩ := degK_real dstW v
  unfold dinvK
  rw [he, Ideal.rsqrt_coe, if_neg (not_lt.2 hr.le), if_neg hr.ne']
  exact ⟨_, rfl⟩

/-! ## The dense stages, coordinate by coordinate -/

section Dense
variable (X : Fin 100000 → Fin 128 → EReal) (Win : Fin 128 → Fin 64 → EReal) (Bin : Fin 64 → EReal)
  (Wg : Fin 64 → Fin 64 → EReal)

/-- The rectified input projection. -/
def hid (p : Fin 100000) (k : Fin 64) : EReal := max (∑ j : Fin 128, X p j * Win j k + Bin k) zeroE
/-- The projected features. -/
def hw (p : Fin 100000) (q : Fin 64) : EReal := ∑ k : Fin 64, hid X Win Bin p k * Wg k q

variable (hX : ∀ p j, IsReal (X p j)) (hWin : ∀ j k, IsReal (Win j k)) (hBin : ∀ k, IsReal (Bin k))
  (hWg : ∀ k q, IsReal (Wg k q))
include hX hWin hBin

theorem isReal_hid (p : Fin 100000) (k : Fin 64) : IsReal (hid X Win Bin p k) := by
  unfold hid
  refine IsReal.max (IsReal.add (IsReal.sum _ _ fun j _ => (hX p j).mul (hWin j k)) (hBin k)) ?_
  rw [zeroE_eq]; exact IsReal.zero

include hWg
theorem isReal_hw (p : Fin 100000) (q : Fin 64) : IsReal (hw X Win Bin Wg p q) := by
  unfold hw
  exact IsReal.sum _ _ fun k _ => (isReal_hid X Win Bin hX hWin hBin p k).mul (hWg k q)

end Dense

/-! ## The law -/

/-- Scaling a row's sum of pre-scaled source rows, the row's own pre-scaled features added, is weighting each edge and the
    self loop: distributivity, for real entries. -/
theorem combine_law {ι : Type*} (S : Finset ι) (T dd : ι → EReal) (hT : ∀ e, IsReal (T e)) (hdd : ∀ e, IsReal (dd e))
    (dv Tv : EReal) (hdv : IsReal dv) (hTv : IsReal Tv) :
    dv * ((0 + ∑ e ∈ S, dd e * T e) + dv * Tv) = 0 + (∑ e ∈ S, T e * (dd e * dv) + Tv * (dv * dv)) := by
  obtain ⟨a, rfl⟩ := hdv
  obtain ⟨b, rfl⟩ := hTv
  choose Tr hTr using hT
  choose dr hdr using hdd
  simp only [hTr, hdr, zero_add, ← EReal.coe_mul, ← coe_sum, ← EReal.coe_add]
  rw [EReal.coe_eq_coe_iff, mul_add, Finset.mul_sum]
  congr 1
  · exact Finset.sum_congr rfl fun e _ => by ring
  · ring

section Out
variable (X : Fin 100000 → Fin 128 → EReal) (Win : Fin 128 → Fin 64 → EReal) (Bin : Fin 64 → EReal)
  (Wg : Fin 64 → Fin 64 → EReal) (Bg : Fin 64 → EReal) (Wo : Fin 64 → EReal) (Bo : EReal)
  (srcW dstW : Fin 1600000 → BitVec 32)

/-- The aggregated, factored form, before the output projection. -/
def aggK (v : Fin 100000) (k : Fin 64) : EReal :=
  zeroE + ∑ e ∈ arrive dstW v, dinvK dstW (nodeOf (srcW e)) * hw X Win Bin Wg (nodeOf (srcW e)) k

/-- THE FACTORED RESULT at node `v`. -/
def outK (v : Fin 100000) : EReal :=
  ∑ k : Fin 64, (dinvK dstW v * (aggK X Win Bin Wg srcW dstW v k + dinvK dstW v * hw X Win Bin Wg v k) + Bg k) * Wo k + Bo

/-- The edge-by-edge aggregate. -/
def aggR (v : Fin 100000) (k : Fin 64) : EReal :=
  zeroE + ∑ e ∈ arriveR dstW v, hw X Win Bin Wg (nodeOf (joinW srcW e)) k
    * (dinvR dstW (nodeOf (joinW srcW e)) * dinvR dstW (nodeOf (joinW dstW e)))

/-- THE EDGE-BY-EDGE RESULT at node `v`. -/
def outR (v : Fin 100000) : EReal :=
  ∑ k : Fin 64, (aggR X Win Bin Wg srcW dstW v k + Bg k) * Wo k + Bo

variable (hX : ∀ p j, IsReal (X p j)) (hWin : ∀ j k, IsReal (Win j k)) (hBin : ∀ k, IsReal (Bin k))
  (hWg : ∀ k q, IsReal (Wg k q))
include hX hWin hBin hWg

/-- The two aggregates agree. -/
theorem aggR_eq (v : Fin 100000) (k : Fin 64) :
    aggR X Win Bin Wg srcW dstW v k
      = dinvK dstW v * (aggK X Win Bin Wg srcW dstW v k + dinvK dstW v * hw X Win Bin Wg v k) := by
  unfold aggR aggK
  rw [sum_arriveR]
  have hloop : nodeOf (BitVec.ofNat 32 v.val) = v := nodeOf_of_toInt _ v (toInt_ofNat_node _ v.isLt)
  simp only [joinW_castE, joinW_loopE, hloop, dinvR_eq]
  have hcong : ∑ e ∈ arrive dstW v, hw X Win Bin Wg (nodeOf (srcW e)) k
        * (dinvK dstW (nodeOf (srcW e)) * dinvK dstW (nodeOf (dstW e)))
      = ∑ e ∈ arrive dstW v, hw X Win Bin Wg (nodeOf (srcW e)) k * (dinvK dstW (nodeOf (srcW e)) * dinvK dstW v) := by
    refine Finset.sum_congr rfl fun e he => ?_
    rw [nodeOf_of_toInt (dstW e) v (Finset.mem_filter.mp he).2]
  rw [hcong, zeroE_eq]
  exact (combine_law (arrive dstW v) (fun e => hw X Win Bin Wg (nodeOf (srcW e)) k) (fun e => dinvK dstW (nodeOf (srcW e)))
    (fun e => isReal_hw X Win Bin Wg hX hWin hBin hWg _ k) (fun e => isReal_dinvK dstW _)
    (dinvK dstW v) (hw X Win Bin Wg v k) (isReal_dinvK dstW v) (isReal_hw X Win Bin Wg hX hWin hBin hWg v k)).symm

/-- THE TWO RESULTS AGREE. -/
theorem outR_eq_outK (v : Fin 100000) :
    outR X Win Bin Wg Bg Wo Bo srcW dstW v = outK X Win Bin Wg Bg Wo Bo srcW dstW v := by
  unfold outR outK
  simp only [aggR_eq X Win Bin Wg srcW dstW hX hWin hBin hWg]

end Out

end Cert.Gcn

end
-- ==== Proof.Coords.lean ====
/-
  The argument arrays read coordinate by coordinate: the names the two programs' results are compared under.
-/
import Idealize.ShloMosaic.Lib.ValueIdx
import Idealize.ShloMosaic.PureOps.Ideal.Laws

noncomputable section

namespace Cert.Gcn

open Idealize.ShloMosaic Idealize.ShloMosaic.ValueIdx

/-- The node features x (p, j). -/
def Xc (a : (⟨2, ![100000, 128]⟩ : Shape).Idx → EReal) (p : Fin 100000) (j : Fin 128) : EReal := a (ix2 p j)
/-- The input projection's weights W_in (j, k). -/
def Winc (a : (⟨2, ![128, 64]⟩ : Shape).Idx → EReal) (j : Fin 128) (k : Fin 64) : EReal := a (ix2 j k)
/-- The input projection's bias b_in k. -/
def Binc (a : (⟨1, ![64]⟩ : Shape).Idx → EReal) (k : Fin 64) : EReal := a (ix1 k)
/-- The convolution's weights W_g (k, q). -/
def Wgc (a : (⟨2, ![64, 64]⟩ : Shape).Idx → EReal) (k q : Fin 64) : EReal := a (ix2 k q)
/-- The convolution's bias b_g k. -/
def Bgc (a : (⟨1, ![64]⟩ : Shape).Idx → EReal) (k : Fin 64) : EReal := a (ix1 k)
/-- The output projection's weights W_out (k, 0). -/
def Woc (a : (⟨2, ![64, 1]⟩ : Shape).Idx → EReal) (k : Fin 64) : EReal := a (ix2 k (0 : Fin 1))
/-- The output projection's bias. -/
def Boc (a : (⟨1, ![1]⟩ : Shape).Idx → EReal) : EReal := a (ix1 (0 : Fin 1))
/-- The source word of edge e: row 0 of the edge index array. -/
def srcWc (a : (⟨2, ![2, 1600000]⟩ : Shape).Idx → BitVec 32) (e : Fin 1600000) : BitVec 32 := a (ix2 (0 : Fin 2) e)
/-- The arrival word of edge e: row 1. -/
def dstWc (a : (⟨2, ![2, 1600000]⟩ : Shape).Idx → BitVec 32) (e : Fin 1600000) : BitVec 32 := a (ix2 (1 : Fin 2) e)

end Cert.Gcn

end
-- ==== Proof.LibRowScatter.lean ====
/-
  Rows accumulated through an integer index column.

  An accumulating scatter whose scatter indices form a column `[E, 1]` and whose update windows are whole rows sends
  update row `e` to the operand row whose number is `idx (e, 0)` read as a signed integer, NOT clamped, and drops the
  row when that number is negative or at least `N`. Over the extended reals the result at `(v, c)` is therefore the
  operand there plus the sum of the updates `(e, c)` over the edges `e` whose integer is exactly `v`. The same holds
  for a flat operand `[N]` with flat updates `[E]`. Stated for any extents `N`, `E`, `C`.
-/
import Idealize.ShloMosaic.Lib.ValueIdx
import Idealize.ShloMosaic.PureOps.Ideal.Laws

open scoped BigOperators

noncomputable section

namespace Cert.RowIndex

open Idealize.ShloMosaic Idealize.ShloMosaic.ValueIdx

/-! ## Rows of an `[N, C]` operand -/

/-- The dimension numbers of "update row `e` goes to operand row `idx (e, 0)`". -/
abbrev rowScatter (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Rows
variable {N E C w : Nat} (wf : ScatterDims.WF ⟨2, ![N, C]⟩ ⟨2, ![E, 1]⟩ ⟨2, ![E, C]⟩ [1] [0] [0] 1)
  (idx : IVec ⟨2, ![E, 1]⟩ w) (e : Fin E) (c' : Fin C)

/-- On the row axis the window starts at the signed integer of the edge's index word. -/
theorem rowScatter_start0 : (rowScatter N E C wf).start (ix2 e c') idx 0 = (idx (ix2 e (0 : Fin 1))).toInt := by
  unfold ScatterDims.start
  rw [dif_pos (show (0 : Fin 2) ∈ (rowScatter N E C wf).scatterDimsToOperandDims from List.mem_singleton.mpr rfl)]
  have hsi : (rowScatter N E C wf).siIdx (ix2 e c') ⟨List.idxOf (0 : Fin 2) (rowScatter N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at zero. -/
theorem rowScatter_start1 : (rowScatter N E C wf).start (ix2 e c') idx 1 = 0 := by
  unfold ScatterDims.start
  rw [dif_neg (show (1 : Fin 2) ∉ (rowScatter N E C wf).scatterDimsToOperandDims from
    fun h => absurd (congrArg Fin.val (List.mem_singleton.mp h)) Nat.one_ne_zero)]

/-- The row axis is inserted: no window coordinate there. -/
theorem rowScatter_window0 : (rowScatter N E C wf).window (ix2 e c') 0 = 0 := by
  unfold ScatterDims.window
  rw [dif_neg (by simp [ScatterDims.sKept, Shape.kept])]

/-- The column axis carries the update's column. -/
theorem rowScatter_window1 : (rowScatter N E C wf).window (ix2 e c') 1 = c'.val := by
  unfold ScatterDims.window
  rw [dif_pos (by simp [ScatterDims.sKept, Shape.kept])]
  rfl

/-- WHERE AN UPDATE LANDS: update `(e, c')` lands on `(v, c)` exactly when the edge's signed integer is `v` and the
    columns agree. -/
theorem rowScatter_lands (v : Fin N) (c : Fin C) :
    (rowScatter N E C wf).resultIdx? (ix2 e c') idx = some (ix2 v c)
      ↔ (idx (ix2 e (0 : Fin 1))).toInt = (v.val : ℤ) ∧ c' = c := by
  have h0 := rowScatter_start0 wf idx e c'
  have h1 := rowScatter_start1 wf idx e c'
  have w0 := rowScatter_window0 wf e c'
  have w1 := rowScatter_window1 wf e c'
  unfold ScatterDims.resultIdx?
  split
  · rename_i h
    constructor
    · intro hs
      have hf := Option.some.inj hs
      have e0 := congrArg (fun f => (f 0).val) hf
      have e1 := congrArg (fun f => (f 1).val) hf
      simp only at e0 e1
      have hh0 := h 0
      rw [h0, w0] at e0 hh0
      rw [h1, w1] at e1
      refine ⟨?_, Fin.ext ?_⟩
      · change ((idx (ix2 e (0 : Fin 1))).toInt + ((0 : ℕ) : ℤ)).toNat = v.val at e0
        omega
      · change ((0 : ℤ) + (c'.val : ℤ)).toNat = c.val at e1
        omega
    · rintro ⟨hv, rfl⟩
      congr 1
      funext a
      refine Fin.ext ?_
      match a with
      | ⟨0, _⟩ =>
        show ((rowScatter N E C wf).start (ix2 e c') idx 0 + ((rowScatter N E C wf).window (ix2 e c') 0 : ℤ)).toNat = v.val
        rw [h0, w0, hv]; omega
      | ⟨1, _⟩ =>
        show ((rowScatter N E C wf).start (ix2 e c') idx 1 + ((rowScatter N E C wf).window (ix2 e c') 1 : ℤ)).toNat = c'.val
        rw [h1, w1]; omega
  · rename_i h
    constructor
    · intro hs; exact absurd hs (by simp)
    · rintro ⟨hv, rfl⟩
      exfalso
      apply h
      intro a
      match a with
      | ⟨0, _⟩ =>
        show 0 ≤ (rowScatter N E C wf).start (ix2 e c') idx 0 + ((rowScatter N E C wf).window (ix2 e c') 0 : ℤ)
          ∧ (rowScatter N E C wf).start (ix2 e c') idx 0 + ((rowScatter N E C wf).window (ix2 e c') 0 : ℤ) < (N : ℤ)
        rw [h0, w0, hv]; have := v.isLt; omega
      | ⟨1, _⟩ =>
        show 0 ≤ (rowScatter N E C wf).start (ix2 e c') idx 1 + ((rowScatter N E C wf).window (ix2 e c') 1 : ℤ)
          ∧ (rowScatter N E C wf).start (ix2 e c') idx 1 + ((rowScatter N E C wf).window (ix2 e c') 1 : ℤ) < (C : ℤ)
        rw [h1, w1]; have := c'.isLt; omega

end Rows

/-- THE ROW SCATTER-ADD AT `(v, c)`, over the extended reals: the operand's entry plus the updates `(e, c)` of the
    edges whose index word is the signed integer `v`. -/
theorem scatterAdd_rows_apply {N E C w : Nat} (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (v : Fin N) (c : Fin C) :
    Ideal.hostScatterAdd (rowScatter N E C wf) x idx upd (ix2 v c)
      = x (ix2 v c) + ∑ e ∈ Finset.univ.filter (fun e : Fin E => (idx (ix2 e (0 : Fin 1))).toInt = (v.val : ℤ)), upd (ix2 e c) := by
  unfold Ideal.hostScatterAdd
  congr 1
  rw [Finset.sum_filter, Finset.sum_filter, sum_idx2]
  refine Finset.sum_congr rfl fun e _ => ?_
  simp only [rowScatter_lands wf idx e _ v c]
  by_cases hq : (idx (ix2 e (0 : Fin 1))).toInt = (v.val : ℤ)
  · simp [hq]
  · simp [hq]

/-- The same, for any record that IS those dimension numbers (a program's own record, by unfolding its definition):
    stated so that the scatter in a goal is matched as it is written and never unfolded. -/
theorem scatterAdd_rows_apply_of {N E C w : Nat} (wf : ScatterDims.WF ⟨2, ![N, C]⟩ ⟨2, ![E, 1]⟩ ⟨2, ![E, C]⟩ [1] [0] [0] 1)
    (r : ScatterDims ⟨2, ![N, C]⟩ ⟨2, ![E, 1]⟩ ⟨2, ![E, C]⟩) (hr : r = rowScatter N E C wf)
    (x : (⟨2, ![N, C]⟩ : Shape).Idx → EReal) (idx : IVec ⟨2, ![E, 1]⟩ w) (upd : (⟨2, ![E, C]⟩ : Shape).Idx → EReal)
    (v : Fin N) (c : Fin C) :
    Ideal.hostScatterAdd r x idx upd (ix2 v c)
      = x (ix2 v c) + ∑ e ∈ Finset.univ.filter (fun e : Fin E => (idx (ix2 e (0 : Fin 1))).toInt = (v.val : ℤ)), upd (ix2 e c) := by
  subst hr
  exact scatterAdd_rows_apply wf x idx upd v c

/-- The same at the exact values, stated of the host operation itself (so that a goal's scatter is matched as written). -/
theorem host_scatterAdd_rows_apply {N E C w : Nat} {φ : FTy} (wf : ScatterDims.WF ⟨2, ![N, C]⟩ ⟨2, ![E, 1]⟩ ⟨2, ![E, C]⟩ [1] [0] [0] 1)
    (r : ScatterDims ⟨2, ![N, C]⟩ ⟨2, ![E, 1]⟩ ⟨2, ![E, C]⟩) (hr : r = rowScatter N E C wf)
    (x : FVec Ideal ⟨2, ![N, C]⟩ φ) (idx : IVec ⟨2, ![E, 1]⟩ w) (upd : FVec Ideal ⟨2, ![E, C]⟩ φ) (v : Fin N) (c : Fin C) :
    Host.scatterAdd r x idx upd (ix2 v c)
      = (x (ix2 v c) : EReal) + ∑ e ∈ Finset.univ.filter (fun e : Fin E => (idx (ix2 e (0 : Fin 1))).toInt = (v.val : ℤ)), (upd (ix2 e c) : EReal) :=
  scatterAdd_rows_apply_of wf r hr x idx upd v c

/-! ## Entries of a flat `[N]` operand -/

/-- The dimension numbers of "update `e` goes to operand entry `idx (e, 0)`". -/
abbrev flatScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Flat
variable {N E w : Nat} (wf : ScatterDims.WF ⟨1, ![N]⟩ ⟨2, ![E, 1]⟩ ⟨1, ![E]⟩ [] [0] [0] 1)
  (idx : IVec ⟨2, ![E, 1]⟩ w) (e : Fin E)

theorem flatScatter_start0 : (flatScatter N E wf).start (ix1 e) idx 0 = (idx (ix2 e (0 : Fin 1))).toInt := by
  unfold ScatterDims.start
  rw [dif_pos (show (0 : Fin 1) ∈ (flatScatter N E wf).scatterDimsToOperandDims from List.mem_singleton.mpr rfl)]
  have hsi : (flatScatter N E wf).siIdx (ix1 e) ⟨List.idxOf (0 : Fin 1) (flatScatter N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem flatScatter_window0 : (flatScatter N E wf).window (ix1 e) 0 = 0 := by
  unfold ScatterDims.window
  rw [dif_neg (by simp [ScatterDims.sKept, Shape.kept])]

/-- Update `e` lands on entry `v` exactly when the edge's signed integer is `v`. -/
theorem flatScatter_lands (v : Fin N) :
    (flatScatter N E wf).resultIdx? (ix1 e) idx = some (ix1 v) ↔ (idx (ix2 e (0 : Fin 1))).toInt = (v.val : ℤ) := by
  have h0 := flatScatter_start0 wf idx e
  have w0 := flatScatter_window0 wf e
  unfold ScatterDims.resultIdx?
  split
  · rename_i h
    constructor
    · intro hs
      have hf := Option.some.inj hs
      have e0 := congrArg (fun f => (f 0).val) hf
      simp only at e0
      have hh0 := h 0
      rw [h0, w0] at e0 hh0
      change ((idx (ix2 e (0 : Fin 1))).toInt + ((0 : ℕ) : ℤ)).toNat = v.val at e0
      omega
    · intro hv
      congr 1
      funext a
      obtain rfl : a = 0 := Subsingleton.elim _ _
      refine Fin.ext ?_
      show ((flatScatter N E wf).start (ix1 e) idx 0 + ((flatScatter N E wf).window (ix1 e) 0 : ℤ)).toNat = v.val
      rw [h0, w0, hv]; omega
  · rename_i h
    constructor
    · intro hs; exact absurd hs (by simp)
    · intro hv
      exfalso
      apply h
      intro a
      obtain rfl : a = 0 := Subsingleton.elim _ _
      show 0 ≤ (flatScatter N E wf).start (ix1 e) idx 0 + ((flatScatter N E wf).window (ix1 e) 0 : ℤ)
        ∧ (flatScatter N E wf).start (ix1 e) idx 0 + ((flatScatter N E wf).window (ix1 e) 0 : ℤ) < (N : ℤ)
      rw [h0, w0, hv]; have := v.isLt; omega

end Flat

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- THE FLAT SCATTER-ADD AT `v`, over the extended reals. -/
theorem scatterAdd_flat_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal) (v : Fin N) :
    Ideal.hostScatterAdd (flatScatter N E wf) x idx upd (ix1 v)
      = x (ix1 v) + ∑ e ∈ Finset.univ.filter (fun e : Fin E => (idx (ix2 e (0 : Fin 1))).toInt = (v.val : ℤ)), upd (ix1 e) := by
  unfold Ideal.hostScatterAdd
  congr 1
  rw [Finset.sum_filter, Finset.sum_filter, sum_idx1]
  refine Finset.sum_congr rfl fun e _ => ?_
  simp only [flatScatter_lands wf idx e v]

/-- The same, for any record that IS those dimension numbers. -/
theorem scatterAdd_flat_apply_of {N E w : Nat} (wf : ScatterDims.WF ⟨1, ![N]⟩ ⟨2, ![E, 1]⟩ ⟨1, ![E]⟩ [] [0] [0] 1)
    (r : ScatterDims ⟨1, ![N]⟩ ⟨2, ![E, 1]⟩ ⟨1, ![E]⟩) (hr : r = flatScatter N E wf)
    (x : (⟨1, ![N]⟩ : Shape).Idx → EReal) (idx : IVec ⟨2, ![E, 1]⟩ w) (upd : (⟨1, ![E]⟩ : Shape).Idx → EReal) (v : Fin N) :
    Ideal.hostScatterAdd r x idx upd (ix1 v)
      = x (ix1 v) + ∑ e ∈ Finset.univ.filter (fun e : Fin E => (idx (ix2 e (0 : Fin 1))).toInt = (v.val : ℤ)), upd (ix1 e) := by
  subst hr
  exact scatterAdd_flat_apply wf x idx upd v

/-- The same at the exact values, stated of the host operation itself. -/
theorem host_scatterAdd_flat_apply {N E w : Nat} {φ : FTy} (wf : ScatterDims.WF ⟨1, ![N]⟩ ⟨2, ![E, 1]⟩ ⟨1, ![E]⟩ [] [0] [0] 1)
    (r : ScatterDims ⟨1, ![N]⟩ ⟨2, ![E, 1]⟩ ⟨1, ![E]⟩) (hr : r = flatScatter N E wf)
    (x : FVec Ideal ⟨1, ![N]⟩ φ) (idx : IVec ⟨2, ![E, 1]⟩ w) (upd : FVec Ideal ⟨1, ![E]⟩ φ) (v : Fin N) :
    Host.scatterAdd r x idx upd (ix1 v)
      = (x (ix1 v) : EReal) + ∑ e ∈ Finset.univ.filter (fun e : Fin E => (idx (ix2 e (0 : Fin 1))).toInt = (v.val : ℤ)), (upd (ix1 e) : EReal) :=
  scatterAdd_flat_apply_of wf r hr x idx upd v

end Cert.RowIndex

end
-- ==== Proof.LibBroadcastInDim.lean ====
/-
  `broadcast_in_dim` of the small shapes around a column, read at an index: a scalar repeated over any shape reads the
  scalar; a vector `[a]` placed as a column `[a, 1]` reads its entry of the row; a column `[a, 1]` repeated along rows of
  width `b` reads the row's one entry. (The operand's unit axes read coordinate zero, its other axes the result's
  coordinate on the axis they are sent to.)
-/
import Idealize.ShloMosaic.Lib.ValueIdx
import Idealize.ShloMosaic.Lib.Pipeline.Value

noncomputable section

namespace Cert.BroadcastInDim

open Idealize.ShloMosaic Idealize.ShloMosaic.ValueIdx

variable {α : Type}

/-- A scalar repeated over a shape reads the scalar everywhere. -/
theorem scalar_apply {s : Shape} (x : (⟨0, ![]⟩ : Shape).Idx → α) (h : (⟨0, ![]⟩ : Shape).BroadcastsInDim s ![]) (i : s.Idx) :
    broadcastInDim s ![] h x i = x ix0 :=
  broadcastInDim_apply ![] h x i ix0 fun a => a.elim0

/-- A vector `[a]` placed as a column `[a, 1]` reads, at `(i, u)`, its entry `i`. -/
theorem column_apply {a : ℕ} (x : (⟨1, ![a]⟩ : Shape).Idx → α) (h : (⟨1, ![a]⟩ : Shape).BroadcastsInDim ⟨2, ![a, 1]⟩ ![0])
    (i : Fin a) (u : Fin 1) : broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- A column `[a, 1]` repeated along rows of width `b` reads, at `(p, c)`, the column's entry of row `p`. -/
theorem rows_apply {a b : ℕ} (x : (⟨2, ![a, 1]⟩ : Shape).Idx → α) (h : (⟨2, ![a, 1]⟩ : Shape).BroadcastsInDim ⟨2, ![a, b]⟩ ![0, 1])
    (p : Fin a) (c : Fin b) : broadcastInDim ⟨2, ![a, b]⟩ ![0, 1] h x (ix2 p c) = x (ix2 p (0 : Fin 1)) := by
  refine broadcastInDim_apply ![0, 1] h x (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.BroadcastInDim

end
-- ==== Proof.LibDotSums.lean ====
/-
  Matrix products at the exact values, read entry by entry.

  For operands of shapes [A, K] and [K, B] whose dimension numbers say "no batch axes, contract axis 1 of the left
  against axis 0 of the right", both the in-kernel product accumulated into a zero tile and the host's `dot_general`
  have, at the entry (p, q), the value `∑ k < K, x (p, k) * y (k, q)`: over the extended reals neither carries a rounding
  or an order of summation, so the two are the same finite sum. The re-indexing of the contraction's own index set to
  `Fin K` is the rows-by-columns lemma for such records.
-/
import proofs.«113121_j6760278523984_2_alg».proof.Proof.LibPlainDot

open scoped BigOperators

namespace Cert.DotSums

open Idealize.ShloMosaic Idealize.ShloMosaic.ValueIdx

variable {A K B : Nat} (d : DotDims ⟨2, ![A, K]⟩ ⟨2, ![K, B]⟩ ⟨2, ![A, B]⟩)

/-- The in-kernel product into a zero accumulator, at (p, q): the plain sum along row p and column q. -/
theorem matmul_zero_ix2 {φ₁ φ₂ : FTy} (prec : Option ContractPrecision)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : FVec Ideal ⟨2, ![A, K]⟩ φ₁) (y : FVec Ideal ⟨2, ![K, B]⟩ φ₂) (p : Fin A) (q : Fin B) :
    FloatOps.matmul d prec x y (constant ⟨2, ![A, B]⟩ .f32 0x00000000#32) (ix2 p q)
      = ∑ k : Fin K, (x (ix2 p k) : EReal) * (y (ix2 k q) : EReal) :=
  (Ideal.matmul_constant_zero_apply d prec x y (ix2 p q)).trans
    (Cert.PlainDot.sum_eq d hlb hln hlc hrb hrn hrc hr hs x y p q)

/-- The host's `dot_general`, at (p, q): the same plain sum, whatever the schedule key. -/
theorem dotGeneral_ix2 {φ₁ φ₂ : FTy} (prec : Option ContractPrecision) (sched : HostSchedule)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : FVec Ideal ⟨2, ![A, K]⟩ φ₁) (y : FVec Ideal ⟨2, ![K, B]⟩ φ₂) (p : Fin A) (q : Fin B) :
    FloatOps.dotGeneral d prec sched x y (ix2 p q)
      = ∑ k : Fin K, (x (ix2 p k) : EReal) * (y (ix2 k q) : EReal) :=
  (Ideal.dotGeneral_apply d prec sched x y (ix2 p q)).trans
    (Cert.PlainDot.sum_eq d hlb hln hlc hrb hrn hrc hr hs x y p q)

end Cert.DotSums
-- ==== Proof.LibOpsAt.lean ====
/-
  Host operations read at an index at the exact values, for any shape: the host's reciprocal square root of an array
  is the reciprocal square root of the entry; an integer comparison and an integer sum of two arrays act entry by entry;
  the host's product of an [A, K] by a [K, B] array (no batch axes, axis 1 against axis 0) has at (p, q) the plain sum
  over k < K of x (p, k) · y (k, q). And a congruence for sums over the indices satisfying a condition: equivalent
  conditions and equal terms give equal sums, whatever the decision procedures.
-/
import proofs.«113121_j6760278523984_2_alg».proof.Proof.LibDotSums
import Idealize.ShloMosaic.Lib.ValueIdx
import Idealize.ShloMosaic.PureOps.Ideal.Laws

open scoped BigOperators

noncomputable section

namespace Cert.OpsAt

open Idealize.ShloMosaic Idealize.ShloMosaic.ValueIdx

/-- The host's reciprocal square root at an index. -/
theorem host_rsqrt_apply {s : Shape} {φ : FTy} (x : FVec Ideal s φ) (i : s.Idx) : Host.rsqrt x i = Ideal.rsqrt (x i) := rfl
/-- An integer comparison at an index. -/
theorem cmpi_at {s : Shape} {w : Nat} (p : CmpIPredicate) (x y : IVec s w) (i : s.Idx) :
    cmpi p x y i = IntOp.cmpi p (x i) (y i) := rfl
/-- An integer sum at an index. -/
theorem addi_at {s : Shape} {w : Nat} (x y : IVec s w) (i : s.Idx) : addi x y i = IntOp.addi (x i) (y i) := rfl

/-- The host's rows-by-columns product at (p, q): the plain sum. -/
theorem host_dot_at {A K B : Nat} {φ₁ φ₂ : FTy} (d : DotDims ⟨2, ![A, K]⟩ ⟨2, ![K, B]⟩ ⟨2, ![A, B]⟩)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : FVec Ideal ⟨2, ![A, K]⟩ φ₁) (y : FVec Ideal ⟨2, ![K, B]⟩ φ₂) (p : Fin A) (q : Fin B) :
    Host.dotGeneral d none x y (ix2 p q) = ∑ k : Fin K, x (ix2 p k) * y (ix2 k q) :=
  Cert.DotSums.dotGeneral_ix2 d none .single hlb hln hlc hrb hrn hrc hr hs x y p q

/-- Two sums over the indices that satisfy equivalent conditions, of equal terms, are equal. -/
theorem sum_filter_congr {ι : Type*} [Fintype ι] (p p' : ι → Prop) [DecidablePred p] [DecidablePred p'] (f f' : ι → EReal)
    (hp : ∀ e, p e ↔ p' e) (hf : ∀ e, f e = f' e) :
    ∑ e ∈ Finset.univ.filter p, f e = ∑ e ∈ Finset.univ.filter p', f' e := by
  rw [Finset.filter_congr (fun e _ => hp e)]
  exact Finset.sum_congr rfl fun e _ => hf e

end Cert.OpsAt

end
-- ==== Proof.KernelValue.lean ====
/-
  The two-launch program's result as one function of its argument arrays, and that function entry by entry.

  Walking the program: the host operations before the projection launch give it the bias row and the weight column
  dinv; the launch leaves the projected, pre-scaled rows hw2; the host operations between the launches gather hw2 along
  the source words and accumulate along the arrival words; the combine launch leaves the result. At node v the result
  is the factored form `outK` of the convolution over the arguments' coordinates.
-/
import proofs.«113121_j6760278523984_2_alg».proof.Proof.KernelRun
import proofs.«113121_j6760278523984_2_alg».proof.Proof.KernelArrays
import proofs.«113121_j6760278523984_2_alg».proof.Proof.KernelHost
import proofs.«113121_j6760278523984_2_alg».proof.Proof.EdgeSpec
import proofs.«113121_j6760278523984_2_alg».proof.Proof.Coords
import proofs.«113121_j6760278523984_2_alg».proof.Proof.LibRowScatter
import proofs.«113121_j6760278523984_2_alg».proof.Proof.LibRowGather
import proofs.«113121_j6760278523984_2_alg».proof.Proof.LibBroadcastInDim
import proofs.«113121_j6760278523984_2_alg».proof.Proof.LibColumnLayout
import proofs.«113121_j6760278523984_2_alg».proof.Proof.LibOpsAt
import Idealize.ShloMosaic.Lib.ValueLayout

set_option maxRecDepth 16384

open scoped BigOperators

noncomputable section

namespace Cert.KernelIdeal.Whole

open Cert.KernelIdeal Cert.KernelIdeal.Gen Cert.KernelIdeal.HostOps Cert.KernelIdeal.Arrays Cert.Gcn Cert.OpsAt
open Idealize.ShloMosaic Idealize.ShloMosaic.TcCoe Idealize.SL.Sem Idealize.ShloMosaic.ValueIdx

/-- THE RESULT ARRAY as a function of the eight argument arrays. -/
def kernelOut (a0 : FVec Ideal S100000x128 .f32) (a1 : IVec S2x1600000 32) (a2 : FVec Ideal S128x64 .f32)
    (a3 : FVec Ideal S64 .f32) (a4 : FVec Ideal S64x64 .f32) (a5 : FVec Ideal S64 .f32) (a6 : FVec Ideal S64x1 .f32)
    (a7 : FVec Ideal S1 .f32) : FVec Ideal S100000x1 .f32 :=
  outArr
    (aggArr (hw2Arr a0 a2 (shapeCast S1x64 a3 shapeCasts_S64_S1x64) a4 (dinvCol a1)) (srcWords a1) (dstWords a1))
    (hw2Arr a0 a2 (shapeCast S1x64 a3 shapeCasts_S64_S1x64) a4 (dinvCol a1)) (dinvCol a1) a6
    (shapeCast S1x64 a5 shapeCasts_S64_S1x64) (shapeCast S1x1 a7 shapeCasts_S1_S1x1)

/-! ## Walking the program -/

section Walk
variable (m : (ℓ : Loc nD τ sig) → Buf (Elt Ideal) ℓ) (ρ : Dev nD → PrngReg) (c : Dev nD)

-- what the projection launch is entered with
theorem v1_arg0 : V1 m ρ c main_arg0 = m ((c : Thread nD τ).loc main_arg0) := pre_arg0 (W0 m ρ c)
theorem v1_arg2 : V1 m ρ c main_arg2 = m ((c : Thread nD τ).loc main_arg2) := pre_arg2 (W0 m ρ c)
theorem v1_arg4 : V1 m ρ c main_arg4 = m ((c : Thread nD τ).loc main_arg4) := pre_arg4 (W0 m ρ c)
theorem v1_v12 : V1 m ρ c main_v12 = shapeCast S1x64 (m ((c : Thread nD τ).loc main_arg3)) shapeCasts_S64_S1x64 := pre_v12 (W0 m ρ c)
theorem v1_v11 : V1 m ρ c main_v11 = dinvCol (m ((c : Thread nD τ).loc main_arg1)) := pre_v11 (W0 m ρ c)

-- what the projection launch leaves
theorem w2_v13 : W2 m ρ c (Proc.devRef .tc main_v13)
    = hw2Arr (m ((c : Thread nD τ).loc main_arg0)) (m ((c : Thread nD τ).loc main_arg2))
        (shapeCast S1x64 (m ((c : Thread nD τ).loc main_arg3)) shapeCasts_S64_S1x64) (m ((c : Thread nD τ).loc main_arg4))
        (dinvCol (m ((c : Thread nD τ).loc main_arg1))) := by
  refine ((W2_arr m ρ c 5).trans (final0 (V1 m ρ) c)).trans ?_
  rw [v1_arg0, v1_arg2, v1_arg4, v1_v12, v1_v11]
theorem w2_v11 : W2 m ρ c (Proc.devRef .tc main_v11) = dinvCol (m ((c : Thread nD τ).loc main_arg1)) :=
  ((W2_arr m ρ c 4).trans (((dat0 (V1 m ρ) c).arrAt_in 4 rfl _).trans (A_eq0 (V1 m ρ) c 4))).trans (v1_v11 m ρ c)
theorem w2_v1 : W2 m ρ c (Proc.devRef .tc main_v1) = srcWords (m ((c : Thread nD τ).loc main_arg1)) :=
  (W2_of_ne m ρ c main_v1 (by decide)).trans (pre_v1 (W0 m ρ c))
theorem w2_v3 : W2 m ρ c (Proc.devRef .tc main_v3) = dstWords (m ((c : Thread nD τ).loc main_arg1)) :=
  (W2_of_ne m ρ c main_v3 (by decide)).trans (pre_v3 (W0 m ρ c))
theorem w2_arg5 : W2 m ρ c (Proc.devRef .tc main_arg5) = m ((c : Thread nD τ).loc main_arg5) :=
  (W2_of_ne m ρ c main_arg5 (by decide)).trans (pre_arg5 (W0 m ρ c))
theorem w2_arg6 : W2 m ρ c (Proc.devRef .tc main_arg6) = m ((c : Thread nD τ).loc main_arg6) :=
  (W2_of_ne m ρ c main_arg6 (by decide)).trans (pre_arg6 (W0 m ρ c))
theorem w2_arg7 : W2 m ρ c (Proc.devRef .tc main_arg7) = m ((c : Thread nD τ).loc main_arg7) :=
  (W2_of_ne m ρ c main_arg7 (by decide)).trans (pre_arg7 (W0 m ρ c))

-- what the combine launch is entered with
theorem v3_v23 : V3 m ρ c main_v23
    = aggArr (W2 m ρ c (Proc.devRef .tc main_v13)) (W2 m ρ c (Proc.devRef .tc main_v1)) (W2 m ρ c (Proc.devRef .tc main_v3)) :=
  mid_v23 (W2 m ρ c)
theorem v3_v13 : V3 m ρ c main_v13 = W2 m ρ c (Proc.devRef .tc main_v13) := mid_v13 (W2 m ρ c)
theorem v3_v11 : V3 m ρ c main_v11 = W2 m ρ c (Proc.devRef .tc main_v11) := mid_v11 (W2 m ρ c)
theorem v3_arg6 : V3 m ρ c main_arg6 = W2 m ρ c (Proc.devRef .tc main_arg6) := mid_arg6 (W2 m ρ c)
theorem v3_v24 : V3 m ρ c main_v24 = shapeCast S1x64 (W2 m ρ c (Proc.devRef .tc main_arg5)) shapeCasts_S64_S1x64 :=
  mid_v24 (W2 m ρ c)
theorem v3_v25 : V3 m ρ c main_v25 = shapeCast S1x1 (W2 m ρ c (Proc.devRef .tc main_arg7)) shapeCasts_S1_S1x1 :=
  mid_v25 (W2 m ρ c)

/-- THE RESULT ARRAY after the run is `kernelOut` of the argument arrays as launched. -/
theorem result_eq : (dat1 (V3 m ρ) c).arrAt 6 cfg1.N
    = kernelOut (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  rw [final1 (V3 m ρ) c, v3_v23, v3_v13, v3_v11, v3_arg6, v3_v24, v3_v25, w2_v13, w2_v11, w2_v1, w2_v3, w2_arg5, w2_arg6, w2_arg7]
  rfl

end Walk

/-- THE RUN, its result named by the arguments: every weakly fair execution terminates without a fault, the result array
    ends at `kernelOut` of the argument arrays, which end as launched. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v26)
        = kernelOut (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ c), (h c).2⟩) (Cert.KernelIdeal.Result.run m ρ)

/-! ## The result entry by entry -/

theorem srcWords_apply (a1 : IVec S2x1600000 32) (e : Fin 1600000) : srcWords a1 (ix1 e) = srcWc a1 e := by
  unfold srcWords srcWc
  rw [shapeCast_1a_a_apply]
  exact slice2_axis0_apply 0 a1 _ (0 : Fin 1) e (0 : Fin 2) rfl

theorem dstWords_apply (a1 : IVec S2x1600000 32) (e : Fin 1600000) : dstWords a1 (ix1 e) = dstWc a1 e := by
  unfold dstWords dstWc
  rw [shapeCast_1a_a_apply]
  exact slice2_axis0_apply 1 a1 _ (0 : Fin 1) e (1 : Fin 2) rfl

/-- The weight column at row v: the reciprocal square root of the degree. -/
theorem dinvCol_apply (a1 : IVec S2x1600000 32) (v : Fin 100000) (u : Fin 1) :
    dinvCol a1 (ix2 v u) = dinvK (dstWc a1) v := by
  unfold dinvCol
  rw [Cert.ColumnLayout.shapeCast_a_a1_apply, host_rsqrt_apply, addf_apply,
    Cert.RowIndex.host_scatterAdd_flat_apply Facts₀.scatter_S100000_S1600000x1_S1600000_n_0_0_1_wf
      scatter_S100000_S1600000x1_S1600000_n_0_0_1 rfl]
  unfold dinvK degK arrive
  refine congrArg Ideal.rsqrt (congrArg₂ (· + ·) (congrArg₂ (· + ·) (Cert.BroadcastInDim.scalar_apply _ _ _)
    (sum_filter_congr _ _ _ _ (fun e => ?_) (fun e => Cert.BroadcastInDim.scalar_apply _ _ _)))
    (Cert.BroadcastInDim.scalar_apply _ _ _))
  rw [Cert.BroadcastInDim.column_apply, dstWords_apply]

/-- The projected features over the arguments' coordinates. -/
theorem hwAt_eq (a0 : FVec Ideal S100000x128 .f32) (a2 : FVec Ideal S128x64 .f32) (a3 : FVec Ideal S64 .f32)
    (a4 : FVec Ideal S64x64 .f32) (p : Fin 100000) (q : Fin 64) :
    hwAt a0 a2 (shapeCast S1x64 a3 shapeCasts_S64_S1x64) a4 p q = hw (Xc a0) (Winc a2) (Binc a3) (Wgc a4) p q := by
  unfold hwAt hidAt hw hid
  simp only [shapeCast_a_1a_apply]
  rfl

/-- The aggregated rows at (v, q): the rows of `H` at the edges' source nodes, summed over the edges arriving at v. -/
theorem aggArr_apply (H : FVec Ideal S100000x64 .f32) (a1 : IVec S2x1600000 32) (v : Fin 100000) (q : Fin 64) :
    aggArr H (srcWords a1) (dstWords a1) (ix2 v q)
      = zeroE + ∑ e ∈ arrive (dstWc a1) v, H (ix2 (nodeOf (srcWc a1 e)) q) := by
  unfold aggArr
  rw [Cert.RowIndex.host_scatterAdd_rows_apply Facts₀.scatter_S100000x64_S1600000x1_S1600000x64_1_0_0_1_wf
    scatter_S100000x64_S1600000x1_S1600000x64_1_0_0_1 rfl]
  unfold arrive
  refine congrArg₂ (· + ·) (Cert.BroadcastInDim.scalar_apply _ _ _) (sum_filter_congr _ _ _ _ (fun e => ?_) (fun e => ?_))
  · rw [Cert.BroadcastInDim.column_apply, dstWords_apply]
  · refine (Cert.RowIndex.gather_rows_apply (N := 100000) (E := 1600000) (C := 64) (by norm_num)
      Facts₀.gather_S100000x64_S1600000x1_S1600000x64_1_0_n_n_0_1_164_wf H _ e q).trans ?_
    rw [Cert.BroadcastInDim.column_apply, select_apply, cmpi_at, addi_at, Cert.BroadcastInDim.scalar_apply,
      Cert.BroadcastInDim.scalar_apply, constantI_apply, constantI_apply, srcWords_apply]
    rfl

/-- THE RESULT AT NODE v is the factored convolution over the arguments' coordinates. -/
theorem kernelOut_apply (a0 : FVec Ideal S100000x128 .f32) (a1 : IVec S2x1600000 32) (a2 : FVec Ideal S128x64 .f32)
    (a3 : FVec Ideal S64 .f32) (a4 : FVec Ideal S64x64 .f32) (a5 : FVec Ideal S64 .f32) (a6 : FVec Ideal S64x1 .f32)
    (a7 : FVec Ideal S1 .f32) (v : Fin 100000) :
    kernelOut a0 a1 a2 a3 a4 a5 a6 a7 (ix2 v (0 : Fin 1))
      = outK (Xc a0) (Winc a2) (Binc a3) (Wgc a4) (Bgc a5) (Woc a6) (Boc a7) (srcWc a1) (dstWc a1) v := by
  have hH : ∀ (p : Fin 100000) (q : Fin 64),
      hw2Arr a0 a2 (shapeCast S1x64 a3 shapeCasts_S64_S1x64) a4 (dinvCol a1) (ix2 p q)
        = dinvK (dstWc a1) p * hw (Xc a0) (Winc a2) (Binc a3) (Wgc a4) p q := fun p q => by
    show hw2At a0 a2 (shapeCast S1x64 a3 shapeCasts_S64_S1x64) a4 (dinvCol a1) p q = _
    unfold hw2At
    rw [dinvCol_apply, hwAt_eq]
  have hbg : ∀ k : Fin 64, shapeCast S1x64 a5 shapeCasts_S64_S1x64 (ix2 (0 : Fin 1) k) = Bgc a5 k :=
    fun k => shapeCast_a_1a_apply a5 shapeCasts_S64_S1x64 (0 : Fin 1) k
  have hbo : shapeCast S1x1 a7 shapeCasts_S1_S1x1 (ix2 (0 : Fin 1) (0 : Fin 1)) = Boc a7 :=
    shapeCast_a_1a_apply a7 shapeCasts_S1_S1x1 (0 : Fin 1) (0 : Fin 1)
  unfold kernelOut outArr
  show outAt _ _ _ _ _ _ v (0 : Fin 1) = _
  unfold outAt outK aggK Woc
  simp only [aggArr_apply, dinvCol_apply, hH, hbg, hbo]

end Cert.KernelIdeal.Whole

end
-- ==== Proof.LibBiasRow.lean ====
/-
  A bias vector as a row, read at an index: a vector `[b]` placed as the one row of `[1, b]` reads its entry of the
  column; a row `[1, b]` repeated down `a` rows reads, at `(p, q)`, its entry `q`. (A `broadcast_in_dim` reads the
  operand's unit axes at coordinate zero and its other axes at the result's coordinate on the axis they are sent to.)
-/
import Idealize.ShloMosaic.Lib.ValueIdx
import Idealize.ShloMosaic.Lib.Pipeline.Value

noncomputable section

namespace Cert.BiasRow

open Idealize.ShloMosaic Idealize.ShloMosaic.ValueIdx

variable {α : Type}

/-- A vector `[b]` placed as the row of `[1, b]` reads, at `(u, q)`, its entry `q`. -/
theorem row_apply {b : ℕ} (x : (⟨1, ![b]⟩ : Shape).Idx → α) (h : (⟨1, ![b]⟩ : Shape).BroadcastsInDim ⟨2, ![1, b]⟩ ![1])
    (u : Fin 1) (q : Fin b) : broadcastInDim ⟨2, ![1, b]⟩ ![1] h x (ix2 u q) = x (ix1 q) := by
  refine broadcastInDim_apply ![1] h x (ix2 u q) (ix1 q) fun ax => ?_
  match ax with
  | ⟨0, _⟩ =>
    show q.val = if b = 1 then 0 else q.val
    split
    · have := q.isLt; omega
    · rfl

/-- A row `[1, b]` repeated down `a` rows reads, at `(p, q)`, the row's entry `q`. -/
theorem down_apply {a b : ℕ} (x : (⟨2, ![1, b]⟩ : Shape).Idx → α) (h : (⟨2, ![1, b]⟩ : Shape).BroadcastsInDim ⟨2, ![a, b]⟩ ![0, 1])
    (p : Fin a) (q : Fin b) : broadcastInDim ⟨2, ![a, b]⟩ ![0, 1] h x (ix2 p q) = x (ix2 (0 : Fin 1) q) := by
  refine broadcastInDim_apply ![0, 1] h x (ix2 p q) (ix2 (0 : Fin 1) q) fun ax => ?_
  match ax with
  | ⟨0, _⟩ =>
    show (0 : ℕ) = if (1 : ℕ) = 1 then 0 else p.val
    rw [if_pos rfl]
  | ⟨1, _⟩ =>
    show q.val = if b = 1 then 0 else q.val
    split
    · have := q.isLt; omega
    · rfl

end Cert.BiasRow

end
-- ==== Proof.RefDense.lean ====
/-
  The reference's dense stages read at an index: the rectified input projection max (x·W_in + b_in, 0) and the projected
  features (·)·W_g, each entry the plain sum over the contracted axis, the bias read at its column.
-/
import proofs.«113121_j6760278523984_2_alg».proof.Proof.Gen.ReferenceIdeal.Read
import proofs.«113121_j6760278523984_2_alg».proof.Proof.EdgeSpec
import proofs.«113121_j6760278523984_2_alg».proof.Proof.Coords
import proofs.«113121_j6760278523984_2_alg».proof.Proof.LibOpsAt
import proofs.«113121_j6760278523984_2_alg».proof.Proof.LibBroadcastInDim
import proofs.«113121_j6760278523984_2_alg».proof.Proof.LibBiasRow

set_option maxRecDepth 16384

open scoped BigOperators

noncomputable section

namespace Cert.ReferenceIdeal.Dense

open Cert.ReferenceIdeal Cert.ReferenceIdeal.Read Cert.Gcn Cert.OpsAt
open Idealize.ShloMosaic Idealize.ShloMosaic.ValueIdx

variable (a0 : FVec Ideal S100000x128 .f32) (a1 : IVec S2x1600000 32) (a2 : FVec Ideal S128x64 .f32)
  (a3 : FVec Ideal S64 .f32) (a4 : FVec Ideal S64x64 .f32) (a5 : FVec Ideal S64 .f32) (a6 : FVec Ideal S64x1 .f32)
  (a7 : FVec Ideal S1 .f32)

/-- The rectified input projection at (p, k). -/
theorem hid_apply (p : Fin 100000) (k : Fin 64) :
    val_main_v4 (F := Ideal) a0 a2 a3 (ix2 p k) = hid (Xc a0) (Winc a2) (Binc a3) p k := by
  unfold val_main_v4 val_main_v3 val_main_v0 val_main_v2 val_main_v1 val_main_call0_v0 val_main_call0_cst
  rw [maximumf_apply, addf_apply, Cert.BiasRow.down_apply, Cert.BiasRow.row_apply, Cert.BroadcastInDim.scalar_apply,
    constant_apply, host_dot_at dot_S100000x128_S128x64_S100000x64_1_0_0_1_n_n rfl rfl rfl rfl rfl rfl rfl rfl]
  rfl

/-- The projected features at (p, q). -/
theorem hw_apply (p : Fin 100000) (q : Fin 64) :
    val_main_v12 (F := Ideal) a0 a2 a3 a4 (ix2 p q) = hw (Xc a0) (Winc a2) (Binc a3) (Wgc a4) p q := by
  unfold val_main_v12
  rw [host_dot_at dot_S100000x64_S64x64_S100000x64_1_0_0_1_n_n rfl rfl rfl rfl rfl rfl rfl rfl]
  unfold hw
  refine Finset.sum_congr rfl fun k _ => ?_
  rw [hid_apply]
  rfl

end Cert.ReferenceIdeal.Dense

end
-- ==== Proof.RefEdges.lean ====
/-
  The reference's edge words read at a position: the two rows of the edge index array as lists, each with the nodes'
  own numbers appended (the self loops), and the three index columns wrapped for the gathers (a negative word has the
  node count added).
-/
import proofs.«113121_j6760278523984_2_alg».proof.Proof.Gen.ReferenceIdeal.Read
import proofs.«113121_j6760278523984_2_alg».proof.Proof.EdgeSpec
import proofs.«113121_j6760278523984_2_alg».proof.Proof.Coords
import proofs.«113121_j6760278523984_2_alg».proof.Proof.LibOpsAt
import proofs.«113121_j6760278523984_2_alg».proof.Proof.LibBroadcastInDim
import Idealize.ShloMosaic.Lib.ValueLayout
import Idealize.ShloMosaic.Lib.Pipeline.Value

set_option maxRecDepth 16384

open scoped BigOperators

noncomputable section

namespace Cert.ReferenceIdeal.Edges

open Cert.ReferenceIdeal Cert.ReferenceIdeal.Read Cert.Gcn Cert.OpsAt
open Idealize.ShloMosaic Idealize.ShloMosaic.ValueIdx

variable (a0 : FVec Ideal S100000x128 .f32) (a1 : IVec S2x1600000 32) (a2 : FVec Ideal S128x64 .f32)
  (a3 : FVec Ideal S64 .f32) (a4 : FVec Ideal S64x64 .f32) (a5 : FVec Ideal S64 .f32) (a6 : FVec Ideal S64x1 .f32)
  (a7 : FVec Ideal S1 .f32)

/-- Two lists joined end to end, at position e: the first list below its length, the second above. -/
theorem join_apply (a : IVec S1600000 32) (b : IVec S100000 32) (e : Fin 1700000) :
    concatenate S1700000 0 [⟨S1600000, a⟩, ⟨S100000, b⟩] Facts₀.concatenates_S1600000_S100000_S1700000_d0 (ix1 e)
      = if h : e.val < 1600000 then a (ix1 (⟨e.val, h⟩ : Fin 1600000))
        else b (ix1 (⟨e.val - 1600000, by have := e.isLt; omega⟩ : Fin 100000)) := by
  by_cases h : e.val < 1600000
  · rw [dif_pos h]
    refine concatenate_pair_apply_left (0 : Fin 1) a b Facts₀.concatenates_S1600000_S100000_S1700000_d0 (ix1 e) rfl
      (ix1 (⟨e.val, h⟩ : Fin 1600000)) fun c => ?_
    match c with
    | ⟨0, _⟩ => rfl
  · rw [dif_neg h]
    refine concatenate_pair_apply_right (0 : Fin 1) a b Facts₀.concatenates_S1600000_S100000_S1700000_d0 (ix1 e) rfl rfl
      (ix1 (⟨e.val - 1600000, by have := e.isLt; omega⟩ : Fin 100000)) (fun c hc => absurd (Subsingleton.elim _ _) hc) ?_
    show e.val - 1600000 + 1600000 = e.val
    omega

theorem src_apply (e : Fin 1600000) : val_main_v6 (F := Ideal) a1 (ix1 e) = srcWc a1 e := by
  unfold val_main_v6 val_main_v5 srcWc
  rw [shapeCast_1a_a_apply]
  exact slice2_axis0_apply 0 a1 _ (0 : Fin 1) e (0 : Fin 2) rfl

theorem dst_apply (e : Fin 1600000) : val_main_v8 (F := Ideal) a1 (ix1 e) = dstWc a1 e := by
  unfold val_main_v8 val_main_v7 dstWc
  rw [shapeCast_1a_a_apply]
  exact slice2_axis0_apply 1 a1 _ (0 : Fin 1) e (1 : Fin 2) rfl

/-- The source words with the self loops appended. -/
theorem srcJ_apply (e : Fin 1700000) : val_main_v10 (F := Ideal) a1 (ix1 e) = joinW (srcWc a1) e := by
  unfold val_main_v10 joinW
  rw [join_apply]
  by_cases h : e.val < 1600000
  · rw [dif_pos h, dif_pos h, src_apply]
  · rw [dif_neg h, dif_neg h]; rfl

/-- The arrival words with the self loops appended. -/
theorem dstJ_apply (e : Fin 1700000) : val_main_v11 (F := Ideal) a1 (ix1 e) = joinW (dstWc a1) e := by
  unfold val_main_v11 joinW
  rw [join_apply]
  by_cases h : e.val < 1600000
  · rw [dif_pos h, dif_pos h, dst_apply]
  · rw [dif_neg h, dif_neg h]; rfl

/-- The three wrapped index columns. -/
theorem srcCol_apply (e : Fin 1700000) :
    val_main_v23 (F := Ideal) a1 (ix2 e (0 : Fin 1)) = wrapW (joinW (srcWc a1) e) := by
  unfold val_main_v23 val_main_v22 val_main_v19 val_main_v21 val_main_v18 val_main_v20 val_main_c val_main_c_1
  rw [Cert.BroadcastInDim.column_apply, select_apply, cmpi_at, addi_at, Cert.BroadcastInDim.scalar_apply,
    Cert.BroadcastInDim.scalar_apply, constantI_apply, constantI_apply, srcJ_apply]
  rfl

theorem dstCol_apply (e : Fin 1700000) :
    val_main_v30 (F := Ideal) a1 (ix2 e (0 : Fin 1)) = wrapW (joinW (dstWc a1) e) := by
  unfold val_main_v30 val_main_v29 val_main_v26 val_main_v28 val_main_v25 val_main_v27 val_main_c_2 val_main_c_3
  rw [Cert.BroadcastInDim.column_apply, select_apply, cmpi_at, addi_at, Cert.BroadcastInDim.scalar_apply,
    Cert.BroadcastInDim.scalar_apply, constantI_apply, constantI_apply, dstJ_apply]
  rfl

theorem srcCol2_apply (e : Fin 1700000) :
    val_main_v38 (F := Ideal) a1 (ix2 e (0 : Fin 1)) = wrapW (joinW (srcWc a1) e) := by
  unfold val_main_v38 val_main_v37 val_main_v34 val_main_v36 val_main_v33 val_main_v35 val_main_c_4 val_main_c_5
  rw [Cert.BroadcastInDim.column_apply, select_apply, cmpi_at, addi_at, Cert.BroadcastInDim.scalar_apply,
    Cert.BroadcastInDim.scalar_apply, constantI_apply, constantI_apply, srcJ_apply]
  rfl

end Cert.ReferenceIdeal.Edges

end
-- ==== Proof.RefOut.lean ====
/-
  The reference's result at a node.

  The degree is the count of the extended list's arrivals; the weight its reciprocal square root; every edge of the
  extended list carries its source row of the projected features times the weights at its two ends, accumulated along
  the arrival words; the bias and the output projection follow. At node v this is the edge-by-edge form `outR` over
  the arguments' coordinates.
-/
import proofs.«113121_j6760278523984_2_alg».proof.Proof.Gen.ReferenceIdeal.Read
import proofs.«113121_j6760278523984_2_alg».proof.Proof.EdgeSpec
import proofs.«113121_j6760278523984_2_alg».proof.Proof.Coords
import proofs.«113121_j6760278523984_2_alg».proof.Proof.LibOpsAt
import proofs.«113121_j6760278523984_2_alg».proof.Proof.RefDense
import proofs.«113121_j6760278523984_2_alg».proof.Proof.RefEdges
import proofs.«113121_j6760278523984_2_alg».proof.Proof.LibRowScatter
import proofs.«113121_j6760278523984_2_alg».proof.Proof.LibRowGather
import proofs.«113121_j6760278523984_2_alg».proof.Proof.LibBroadcastInDim
import proofs.«113121_j6760278523984_2_alg».proof.Proof.LibBiasRow

set_option maxRecDepth 16384

open scoped BigOperators

noncomputable section

namespace Cert.ReferenceIdeal.Out

open Cert.ReferenceIdeal Cert.ReferenceIdeal.Read Cert.Gcn Cert.OpsAt
open Cert.ReferenceIdeal.Dense Cert.ReferenceIdeal.Edges
open Idealize.ShloMosaic Idealize.ShloMosaic.ValueIdx

variable (a0 : FVec Ideal S100000x128 .f32) (a1 : IVec S2x1600000 32) (a2 : FVec Ideal S128x64 .f32)
  (a3 : FVec Ideal S64 .f32) (a4 : FVec Ideal S64x64 .f32) (a5 : FVec Ideal S64 .f32) (a6 : FVec Ideal S64x1 .f32)
  (a7 : FVec Ideal S1 .f32)

/-! ## Degrees and weights -/

theorem deg_apply (v : Fin 100000) : val_main_v16 (F := Ideal) a1 (ix1 v) = degR (dstWc a1) v := by
  unfold val_main_v16 val_main_v14 val_main_v15 val_main_v13 val_main_cst val_main_cst_0
  rw [Cert.RowIndex.host_scatterAdd_flat_apply Facts₀.scatter_S100000_S1700000x1_S1700000_n_0_0_1_wf
    scatter_S100000_S1700000x1_S1700000_n_0_0_1 rfl]
  unfold degR arriveR
  refine congrArg₂ (· + ·) (Cert.BroadcastInDim.scalar_apply _ _ _)
    (sum_filter_congr _ _ _ _ (fun e => ?_) (fun e => Cert.BroadcastInDim.scalar_apply _ _ _))
  rw [Cert.BroadcastInDim.column_apply, dstJ_apply]

theorem dinv_apply (v : Fin 100000) : val_main_v17 (F := Ideal) a1 (ix1 v) = dinvR (dstWc a1) v := by
  unfold val_main_v17
  rw [host_rsqrt_apply, deg_apply]
  rfl

/-- The weight at an edge's source node and at its arrival node. -/
theorem dinvSrc_apply (e : Fin 1700000) :
    val_main_v24 (F := Ideal) a1 (ix1 e) = dinvR (dstWc a1) (nodeOf (joinW (srcWc a1) e)) := by
  unfold val_main_v24
  refine (Cert.RowIndex.gather_flat_apply (N := 100000) (E := 1700000) (by norm_num)
    Facts₀.gather_S100000_S1700000x1_S1700000_n_0_n_n_0_1_1_wf (val_main_v17 (F := Ideal) a1) (val_main_v23 (F := Ideal) a1) e).trans ?_
  rw [srcCol_apply, dinv_apply]
  rfl

theorem dinvDst_apply (e : Fin 1700000) :
    val_main_v31 (F := Ideal) a1 (ix1 e) = dinvR (dstWc a1) (nodeOf (joinW (dstWc a1) e)) := by
  unfold val_main_v31
  refine (Cert.RowIndex.gather_flat_apply (N := 100000) (E := 1700000) (by norm_num)
    Facts₀.gather_S100000_S1700000x1_S1700000_n_0_n_n_0_1_1_wf (val_main_v17 (F := Ideal) a1) (val_main_v30 (F := Ideal) a1) e).trans ?_
  rw [dstCol_apply, dinv_apply]
  rfl

/-- The source row of the projected features at edge e, column q. -/
theorem rowSrc_apply (e : Fin 1700000) (q : Fin 64) :
    val_main_v39 (F := Ideal) a0 a1 a2 a3 a4 (ix2 e q)
      = hw (Xc a0) (Winc a2) (Binc a3) (Wgc a4) (nodeOf (joinW (srcWc a1) e)) q := by
  unfold val_main_v39
  refine (Cert.RowIndex.gather_rows_apply (N := 100000) (E := 1700000) (C := 64) (by norm_num)
    Facts₀.gather_S100000x64_S1700000x1_S1700000x64_1_0_n_n_0_1_164_wf (val_main_v12 (F := Ideal) a0 a2 a3 a4)
    (val_main_v38 (F := Ideal) a1) e q).trans ?_
  rw [srcCol2_apply, hw_apply]
  rfl

/-- The weighted message of edge e at column q. -/
theorem msg_apply (e : Fin 1700000) (q : Fin 64) :
    val_main_v42 (F := Ideal) a0 a1 a2 a3 a4 (ix2 e q)
      = hw (Xc a0) (Winc a2) (Binc a3) (Wgc a4) (nodeOf (joinW (srcWc a1) e)) q
        * (dinvR (dstWc a1) (nodeOf (joinW (srcWc a1) e)) * dinvR (dstWc a1) (nodeOf (joinW (dstWc a1) e))) := by
  unfold val_main_v42 val_main_v41 val_main_v40 val_main_v32
  rw [mulf_apply, rowSrc_apply, Cert.BroadcastInDim.rows_apply, Cert.BroadcastInDim.column_apply, mulf_apply,
    dinvSrc_apply, dinvDst_apply]

/-- The aggregate at (v, q). -/
theorem agg_apply (v : Fin 100000) (q : Fin 64) :
    val_main_v45 (F := Ideal) a0 a1 a2 a3 a4 (ix2 v q)
      = aggR (Xc a0) (Winc a2) (Binc a3) (Wgc a4) (srcWc a1) (dstWc a1) v q := by
  unfold val_main_v45 val_main_v43 val_main_v44 val_main_cst_6
  rw [Cert.RowIndex.host_scatterAdd_rows_apply Facts₀.scatter_S100000x64_S1700000x1_S1700000x64_1_0_0_1_wf
    scatter_S100000x64_S1700000x1_S1700000x64_1_0_0_1 rfl]
  unfold aggR arriveR
  refine congrArg₂ (· + ·) (Cert.BroadcastInDim.scalar_apply _ _ _)
    (sum_filter_congr _ _ _ _ (fun e => ?_) (fun e => msg_apply a0 a1 a2 a3 a4 e q))
  rw [Cert.BroadcastInDim.column_apply, dstJ_apply]

/-- The aggregate with the bias, at (v, k). -/
theorem row_apply (v : Fin 100000) (k : Fin 64) :
    val_main_v48 (F := Ideal) a0 a1 a2 a3 a4 a5 (ix2 v k)
      = aggR (Xc a0) (Winc a2) (Binc a3) (Wgc a4) (srcWc a1) (dstWc a1) v k + Bgc a5 k := by
  unfold val_main_v48 val_main_v47 val_main_v46
  rw [addf_apply, agg_apply, Cert.BiasRow.down_apply, Cert.BiasRow.row_apply]
  rfl

/-- THE REFERENCE'S RESULT AT NODE v is the edge-by-edge convolution over the arguments' coordinates. -/
theorem ref_apply (v : Fin 100000) :
    val_main_v52 (F := Ideal) a0 a1 a2 a3 a4 a5 a6 a7 (ix2 v (0 : Fin 1))
      = outR (Xc a0) (Winc a2) (Binc a3) (Wgc a4) (Bgc a5) (Woc a6) (Boc a7) (srcWc a1) (dstWc a1) v := by
  unfold val_main_v52 val_main_v49 val_main_v51 val_main_v50
  rw [addf_apply, host_dot_at dot_S100000x64_S64x1_S100000x1_1_0_0_1_n_n rfl rfl rfl rfl rfl rfl rfl rfl,
    Cert.BiasRow.down_apply, Cert.BiasRow.row_apply]
  unfold outR Woc Boc
  refine congrArg₂ (· + ·) (Finset.sum_congr rfl fun k _ => ?_) rfl
  rw [row_apply]

end Cert.ReferenceIdeal.Out

end
-- ==== Proof.LibFiniteEntries.lean ====
/-
  "Every entry is finite", read back from its printed test, for an array of any shape.

  A finiteness precondition tests each entry by |a| < +∞ — the absolute value the host's max (a, -a), plus infinity the
  word 0x7F800000 repeated over the shape — and reduces the tests by `and` to one bit. When that bit is one every test is
  one; and on the extended reals |a| < +∞ says a is neither infinity, so a is a real number (`IsReal`).
-/
import proofs.«113121_j6760278523984_2_alg».proof.Proof.LibRealEdgeSums
import proofs.«113121_j6760278523984_2_alg».proof.Proof.LibBroadcastInDim
import Idealize.ShloMosaic.Lib.ReduceAll
import Idealize.ShloMosaic.Lib.ValueIdx
import Idealize.ShloMosaic.PureOps.Ideal.Laws

noncomputable section

namespace Cert.FiniteEntries

open Idealize.ShloMosaic Idealize.ShloMosaic.ValueIdx Cert.GcnAlgebra

/-- The word 0x7F800000 is plus infinity. -/
theorem inf_word : Ideal.ofBits .f32 0x7F800000#32 = ⊤ := by simp [Ideal.ofBits, Ideal.ieee]

/-- An extended real whose absolute value compares below plus infinity is a real number. -/
theorem isReal_of_lt_inf (x : EReal) (h : Ideal.cmp .olt (max x (-x)) (Ideal.ofBits .f32 0x7F800000#32) = 1#1) : IsReal x := by
  rw [inf_word] at h
  have hlt : max x (-x) < ⊤ := by
    by_contra hc
    have h0 : Ideal.cmp .olt (max x (-x)) ⊤ = 0#1 := by
      unfold Ideal.cmp
      simp [hc]
    rw [h0] at h
    exact absurd h (by decide)
  obtain ⟨h1, h2⟩ := max_lt_iff.mp hlt
  induction x using EReal.rec with
  | bot => exact absurd h2 (by simp)
  | top => exact absurd h1 (lt_irrefl _)
  | coe r => exact ⟨r, rfl⟩

instance : Subsingleton (⟨0, ![]⟩ : Shape).Idx := ⟨fun a b => funext fun d => d.elim0⟩

/-- One argument: when the all-reduction of its "absolute value below plus infinity" tests is one, every entry is real. -/
theorem all_real {S : Shape} (a : FVec Ideal S .f32) (hb : (⟨0, ![]⟩ : Shape).BroadcastsInDim S ![])
    {axes : List (Fin S.rank)} (hr : S.ReducesTo axes ⟨0, ![]⟩) (hu : 0 < (⟨0, ![]⟩ : Shape).numel)
    (h : Host.reduce IntOp.andi
        (cmpf .olt (Host.absf a) (broadcastInDim S ![] hb (constant (F := Ideal) ⟨0, ![]⟩ .f32 0x7F800000#32)))
        (constantI ⟨0, ![]⟩ 1 1#1) hr hu ix0 = 1#1) (i : S.Idx) : IsReal (a i) := by
  have hi := Host.reduce_andi_all _ _ hr hu ix0 h i
  have hB : broadcastInDim S ![] hb (constant (F := Ideal) ⟨0, ![]⟩ .f32 0x7F800000#32) i
      = Ideal.ofBits .f32 0x7F800000#32 := Cert.BroadcastInDim.scalar_apply _ hb i
  have hi' : Ideal.cmp .olt (max (a i) (-(a i)))
      (broadcastInDim S ![] hb (constant (F := Ideal) ⟨0, ![]⟩ .f32 0x7F800000#32) i) = 1#1 := hi
  rw [hB] at hi'
  exact isReal_of_lt_inf _ hi'

end Cert.FiniteEntries

end
-- ==== Proof.Finite.lean ====
/-
  The precondition read back: every entry of x, W_in, b_in and W_g is a real number.

  The precondition is the conjunction, over the seven float arguments, of "every entry's absolute value is below the
  word of plus infinity". A conjunction that is one has both conjuncts one; an all-reduction by `and` that is one has
  every element one; and |a| < +∞ on the extended reals says a is neither infinity, so a is a real number.
-/
import proofs.«113121_j6760278523984_2_alg».proof.Pre_finite_inputs
import proofs.«113121_j6760278523984_2_alg».proof.Proof.Gen.Pre_finite_inputs
import proofs.«113121_j6760278523984_2_alg».proof.Proof.LibFiniteEntries
import Idealize.ShloMosaic.Lib.ReduceAll
import Idealize.ShloMosaic.Lib.ValueIdx
import Idealize.ShloMosaic.PureOps.Ideal.Laws

noncomputable section

namespace Cert.Finite

open Idealize.ShloMosaic Idealize.ShloMosaic.ValueIdx Cert.GcnAlgebra Cert.FiniteEntries

/-- THE PRECONDITION, READ BACK for the four arrays the feature rows are computed from. -/
theorem real_of_pre (a0 : FVec Ideal Cert.Pre_finite_inputs.S100000x128 .f32) (a1 : IVec Cert.Pre_finite_inputs.S2x1600000 32)
    (a2 : FVec Ideal Cert.Pre_finite_inputs.S128x64 .f32) (a3 : FVec Ideal Cert.Pre_finite_inputs.S64 .f32)
    (a4 : FVec Ideal Cert.Pre_finite_inputs.S64x64 .f32) (a5 : FVec Ideal Cert.Pre_finite_inputs.S64 .f32)
    (a6 : FVec Ideal Cert.Pre_finite_inputs.S64x1 .f32) (a7 : FVec Ideal Cert.Pre_finite_inputs.S1 .f32)
    (h : Cert.Pre_finite_inputs.fn (F := Ideal) a0 a1 a2 a3 a4 a5 a6 a7 = fun _ => 1#1) :
    (∀ i, IsReal (a0 i)) ∧ (∀ i, IsReal (a2 i)) ∧ (∀ i, IsReal (a3 i)) ∧ (∀ i, IsReal (a4 i)) := by
  have h0 := congrFun h ix0
  dsimp only [Cert.Pre_finite_inputs.fn, Cert.Pre_finite_inputs.fn_part1] at h0
  obtain ⟨h6, -⟩ := IntOp.andi_eq_one.mp h0
  obtain ⟨h5, -⟩ := IntOp.andi_eq_one.mp h6
  obtain ⟨h4, -⟩ := IntOp.andi_eq_one.mp h5
  obtain ⟨h3, hWg⟩ := IntOp.andi_eq_one.mp h4
  obtain ⟨h2, hBin⟩ := IntOp.andi_eq_one.mp h3
  obtain ⟨hX, hWin⟩ := IntOp.andi_eq_one.mp h2
  exact ⟨all_real a0 _ _ _ hX, all_real a2 _ _ _ hWin, all_real a3 _ _ _ hBin, all_real a4 _ _ _ hWg⟩

end Cert.Finite

end
-- ==== Proof.lean ====
/-
  A two-layer graph network's forward pass — input projection with a rectifier, one graph convolution with symmetric
  normalisation and self loops, output projection — as two fused row-tiled launches around a host gather and
  scatter-add, against the plain reference, at the exact values.

  The kernel factors the convolution: with dinv v = (1 + arrivals at v)^(-1/2) it pre-scales the projected rows,
  hw2 = dinv · hw, sums them along the edges, and scales the sum and the row's own hw2 once more by dinv v; the
  reference appends the self loops to the edge list and weights every edge by dinv (src) · dinv (dst). At each node
  the first is `outK` and the second `outR` of the arguments' coordinates (Proof/KernelValue.lean, Proof/RefOut.lean),
  and the two agree when the projected features and the weights are real numbers (Proof/EdgeSpec.lean): the weights
  always are, the degree being at least one, and the features are because the precondition makes x, W_in, b_in, W_g
  finite (Proof/Finite.lean). A changed float format and a matrix product's tiling are no difference at the exact values.
  The edge words are arbitrary 32-bit integers: both programs drop an out-of-range arrival word in the scatter and
  wrap and clamp a source word in the gather, in the same way.
-/
import proofs.«113121_j6760278523984_2_alg».proof.Defs
import proofs.«113121_j6760278523984_2_alg».proof.Proof.Gen.Kernel
import proofs.«113121_j6760278523984_2_alg».proof.Proof.Gen.Kernel.Skeleton
import proofs.«113121_j6760278523984_2_alg».proof.Proof.Gen.Kernel.Launch
import proofs.«113121_j6760278523984_2_alg».proof.Proof.Gen.Kernel.Points
import proofs.«113121_j6760278523984_2_alg».proof.Proof.Gen.Kernel.Frame
import proofs.«113121_j6760278523984_2_alg».proof.Proof.Gen.KernelIdeal
import proofs.«113121_j6760278523984_2_alg».proof.Proof.Gen.KernelIdeal.Skeleton
import proofs.«113121_j6760278523984_2_alg».proof.Proof.Gen.KernelIdeal.Launch
import proofs.«113121_j6760278523984_2_alg».proof.Proof.Gen.KernelIdeal.Points
import proofs.«113121_j6760278523984_2_alg».proof.Proof.Gen.KernelIdeal.Frame
import proofs.«113121_j6760278523984_2_alg».proof.Proof.Gen.ReferenceIdeal
import proofs.«113121_j6760278523984_2_alg».proof.Proof.Gen.Pre_finite_inputs
import proofs.«113121_j6760278523984_2_alg».proof.Proof.Gen.ReferenceIdeal.Run
import proofs.«113121_j6760278523984_2_alg».proof.Proof.Gen.ReferenceIdeal.Read
import proofs.«113121_j6760278523984_2_alg».proof.Proof.KernelValue
import proofs.«113121_j6760278523984_2_alg».proof.Proof.RefOut
import proofs.«113121_j6760278523984_2_alg».proof.Proof.Finite
import proofs.«113121_j6760278523984_2_alg».proof.Proof.EdgeSpec
import proofs.«113121_j6760278523984_2_alg».proof.Proof.Coords
import Idealize.ShloMosaic.Adequacy
import Idealize.ShloMosaic.Init

set_option maxRecDepth 16384

noncomputable section

namespace Cert.Proof

open Idealize.ShloMosaic Idealize.ShloMosaic.ValueIdx Idealize.SL.Sem Cert.Gcn Cert.GcnAlgebra

/-- Both programs' results are one function of the arguments when x, W_in, b_in and W_g hold real numbers: at node v the
    reference's is the edge-by-edge convolution, the kernel's the factored one. -/
theorem results_agree (a0 : FVec Ideal ⟨2, ![100000, 128]⟩ .f32) (a1 : IVec ⟨2, ![2, 1600000]⟩ 32)
    (a2 : FVec Ideal ⟨2, ![128, 64]⟩ .f32) (a3 : FVec Ideal ⟨1, ![64]⟩ .f32) (a4 : FVec Ideal ⟨2, ![64, 64]⟩ .f32)
    (a5 : FVec Ideal ⟨1, ![64]⟩ .f32) (a6 : FVec Ideal ⟨2, ![64, 1]⟩ .f32) (a7 : FVec Ideal ⟨1, ![1]⟩ .f32)
    (h0 : ∀ i, IsReal (a0 i)) (h2 : ∀ i, IsReal (a2 i)) (h3 : ∀ i, IsReal (a3 i)) (h4 : ∀ i, IsReal (a4 i)) :
    Cert.ReferenceIdeal.Read.val_main_v52 (F := Ideal) a0 a1 a2 a3 a4 a5 a6 a7
      = Cert.KernelIdeal.Whole.kernelOut a0 a1 a2 a3 a4 a5 a6 a7 := by
  refine funext fun (i : (⟨2, ![100000, 1]⟩ : Shape).Idx) => ?_
  obtain ⟨v, u, rfl⟩ : ∃ (v : Fin 100000) (u : Fin 1), i = ix2 v u := ⟨i 0, i 1, eq_ix2 i⟩
  obtain rfl : u = 0 := Subsingleton.elim _ _
  rw [Cert.ReferenceIdeal.Out.ref_apply, Cert.KernelIdeal.Whole.kernelOut_apply]
  exact outR_eq_outK (Xc a0) (Winc a2) (Binc a3) (Wgc a4) (Bgc a5) (Woc a6) (Boc a7) (srcWc a1) (dstWc a1)
    (fun p j => h0 (ix2 p j)) (fun j k => h2 (ix2 j k)) (fun k => h3 (ix1 k)) (fun k q => h4 (ix2 k q)) v

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- At the exact values the kernel's result array ends at `kernelOut` of the argument arrays and the reference's at its
    composed term of arguments that agree; under the precondition the two are one function. -/
theorem algebraic : Cert.algebraic_KernelIdeal_ReferenceIdeal := by
  intro m ρ m' ρ' hpre hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h2, h3, h4⟩ := Cert.Finite.real_of_pre _ _ _ _ _ _ _ _ (hpre c)
  rw [Cert.ReferenceIdeal.Read.val_main_v52_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  exact results_agree _ _ _ _ _ _ _ _ h0 h2 h3 h4

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
